-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S433x300 .f32) (main_arg5 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg4
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x133 .f32) (main_arg1 : FVec F S200000x147 .f32) (main_arg2 : FVec F S147x300 .f32) (main_arg3 : FVec F S300x300 .f32) (main_arg4 : FVec F S433x300 .f32) (main_arg5 : FVec F S300 .f32) (main_arg6 : IVec S100000x6 32) (main_arg7 : IVec S200000 32) (main_arg8 : IVec S200000 32) (main_arg9 : IVec S100000 32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg2
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_v13 main_v16
-- ==== Kernel.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S200000x300 : Shape := ⟨2, ![200000, 300]⟩
abbrev S2000x147 : Shape := ⟨2, ![2000, 147]⟩
abbrev S2000x300 : Shape := ⟨2, ![2000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S133x300 : Shape := ⟨2, ![133, 300]⟩
abbrev S1x300 : Shape := ⟨2, ![1, 300]⟩
abbrev S2000x133 : Shape := ⟨2, ![2000, 133]⟩
abbrev S8192x300 : Shape := ⟨2, ![8192, 300]⟩
abbrev S100000x1 : Shape := ⟨2, ![100000, 1]⟩
abbrev S8192 : Shape := ⟨1, ![8192]⟩
abbrev S8192x1 : Shape := ⟨2, ![8192, 1]⟩

abbrev nBuf : Space → Nat
  | .hbm => 143
  | .vmem => 37
  | .smem => 0
  | _ => 0

abbrev hbmTy0_0 (i : Nat) : BufTy := match i % 128 with
  | 0 => ⟨S100000x133, .f32⟩
  | 1 => ⟨S200000x147, .f32⟩
  | 2 => ⟨S147x300, .f32⟩
  | 3 => ⟨S300x300, .f32⟩
  | 4 => ⟨S433x300, .f32⟩
  | 5 => ⟨S300, .f32⟩
  | 6 => ⟨S100000x6, .i32⟩
  | 7 => ⟨S200000, .i32⟩
  | 8 => ⟨S200000, .i32⟩
  | 9 => ⟨S100000, .i32⟩
  | 10 => ⟨S200000x300, .f32⟩
  | 11 => ⟨S200000x300, .bf16⟩
  | 12 => ⟨S_, .i32⟩
  | 13 => ⟨S100000x6, .i32⟩
  | 14 => ⟨S100000x6, .i1⟩
  | 15 => ⟨S_, .i32⟩
  | 16 => ⟨S100000x6, .i32⟩
  | 17 => ⟨S100000x6, .i32⟩
  | 18 => ⟨S100000x6, .i32⟩
  | 19 => ⟨S100000x6x1, .i32⟩
  | 20 => ⟨S100000x6x300, .bf16⟩
  | 21 => ⟨S100000x6x300, .f32⟩
  | 22 => ⟨S_, .f32⟩
  | 23 => ⟨S100000x300, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x300, .bf16⟩
  | 33 => ⟨S200000x300, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x300, .f32⟩
  | 43 => ⟨S200000x300, .f32⟩
  | 44 => ⟨S200000x300, .bf16⟩
  | 45 => ⟨S_, .i32⟩
  | 46 => ⟨S100000x6, .i32⟩
  | 47 => ⟨S100000x6, .i1⟩
  | 48 => ⟨S_, .i32⟩
  | 49 => ⟨S100000x6, .i32⟩
  | 50 => ⟨S100000x6, .i32⟩
  | 51 => ⟨S100000x6, .i32⟩
  | 52 => ⟨S100000x6x1, .i32⟩
  | 53 => ⟨S100000x6x300, .bf16⟩
  | 54 => ⟨S100000x6x300, .f32⟩
  | 55 => ⟨S_, .f32⟩
  | 56 => ⟨S100000x300, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x300, .bf16⟩
  | 66 => ⟨S200000x300, .f32⟩
  | 67 => ⟨S_, .i32⟩
  | 68 => ⟨S200000, .i32⟩
  | 69 => ⟨S200000, .i1⟩
  | 70 => ⟨S_, .i32⟩
  | 71 => ⟨S200000, .i32⟩
  | 72 => ⟨S200000, .i32⟩
  | 73 => ⟨S200000, .i32⟩
  | 74 => ⟨S200000x1, .i32⟩
  | 75 => ⟨S200000x300, .f32⟩
  | 76 => ⟨S200000x300, .f32⟩
  | 77 => ⟨S200000x300, .bf16⟩
  | 78 => ⟨S_, .i32⟩
  | 79 => ⟨S100000x6, .i32⟩
  | 80 => ⟨S100000x6, .i1⟩
  | 81 => ⟨S_, .i32⟩
  | 82 => ⟨S100000x6, .i32⟩
  | 83 => ⟨S100000x6, .i32⟩
  | 84 => ⟨S100000x6, .i32⟩
  | 85 => ⟨S100000x6x1, .i32⟩
  | 86 => ⟨S100000x6x300, .bf16⟩
  | 87 => ⟨S100000x6x300, .f32⟩
  | 88 => ⟨S_, .f32⟩
  | 89 => ⟨S100000x300, .f32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S200000x300, .bf16⟩
  | 99 => ⟨S200000x300, .f32⟩
  | 100 => ⟨S_, .i32⟩
  | 101 => ⟨S200000, .i32⟩
  | 102 => ⟨S200000, .i1⟩
  | 103 => ⟨S_, .i32⟩
  | 104 => ⟨S200000, .i32⟩
  | 105 => ⟨S200000, .i32⟩
  | 106 => ⟨S200000, .i32⟩
  | 107 => ⟨S200000x1, .i32⟩
  | 108 => ⟨S200000x300, .f32⟩
  | 109 => ⟨S200000x300, .f32⟩
  | 110 => ⟨S200000x300, .bf16⟩
  | 111 => ⟨S_, .i32⟩
  | 112 => ⟨S100000x6, .i32⟩
  | 113 => ⟨S100000x6, .i1⟩
  | 114 => ⟨S_, .i32⟩
  | 115 => ⟨S100000x6, .i32⟩
  | 116 => ⟨S100000x6, .i32⟩
  | 117 => ⟨S100000x6, .i32⟩
  | 118 => ⟨S100000x6x1, .i32⟩
  | 119 => ⟨S100000x6x300, .bf16⟩
  | 120 => ⟨S100000x6x300, .f32⟩
  | 121 => ⟨S_, .f32⟩
  | 122 => ⟨S100000x300, .f32⟩
  | 123 => ⟨S133x300, .f32⟩
  | 124 => ⟨S300x300, .f32⟩
  | 125 => ⟨S1x300, .f32⟩
  | 126 => ⟨S100000x300, .f32⟩
  | 127 => ⟨S_, .f32⟩
  | _ => ⟨S100000x133, .f32⟩

abbrev hbmTy0_1 (i : Nat) : BufTy := match i % 128 with
  | 0 => ⟨S8192x300, .f32⟩
  | 1 => ⟨S100000x1, .i32⟩
  | 2 => ⟨S8192x300, .f32⟩
  | 3 => ⟨S_, .f32⟩
  | 4 => ⟨S100000, .f32⟩
  | 5 => ⟨S_, .f32⟩
  | 6 => ⟨S8192, .f32⟩
  | 7 => ⟨S100000x1, .i32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x300, .f32⟩
  | 14 => ⟨S8192x300, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | .local _ .vmem, ⟨0, _⟩ => ⟨S2000x147, .f32⟩
  | .local _ .vmem, ⟨1, _⟩ => ⟨S2000x147, .f32⟩
  | .local _ .vmem, ⟨2, _⟩ => ⟨S147x300, .f32⟩
  | .local _ .vmem, ⟨3, _⟩ => ⟨S2000x300, .f32⟩
  | .local _ .vmem, ⟨4, _⟩ => ⟨S2000x300, .f32⟩
  | .local _ .vmem, ⟨5, _⟩ => ⟨S2000x300, .bf16⟩
  | .local _ .vmem, ⟨6, _⟩ => ⟨S2000x300, .bf16⟩
  | .local _ .vmem, ⟨7, _⟩ => ⟨S2000x300, .f32⟩
  | .local _ .vmem, ⟨8, _⟩ => ⟨S2000x300, .f32⟩
  | .local _ .vmem, ⟨9, _⟩ => ⟨S300x300, .f32⟩
  | .local _ .vmem, ⟨10, _⟩ => ⟨S2000x300, .f32⟩
  | .local _ .vmem, ⟨11, _⟩ => ⟨S2000x300, .f32⟩
  | .local _ .vmem, ⟨12, _⟩ => ⟨S2000x300, .bf16⟩
  | .local _ .vmem, ⟨13, _⟩ => ⟨S2000x300, .bf16⟩
  | .local _ .vmem, ⟨14, _⟩ => ⟨S2000x300, .f32⟩
  | .local _ .vmem, ⟨15, _⟩ => ⟨S2000x300, .f32⟩
  | .local _ .vmem, ⟨16, _⟩ => ⟨S300x300, .f32⟩
  | .local _ .vmem, ⟨17, _⟩ => ⟨S2000x300, .f32⟩
  | .local _ .vmem, ⟨18, _⟩ => ⟨S2000x300, .f32⟩
  | .local _ .vmem, ⟨19, _⟩ => ⟨S2000x300, .bf16⟩
  | .local _ .vmem, ⟨20, _⟩ => ⟨S2000x300, .bf16⟩
  | .local _ .vmem, ⟨21, _⟩ => ⟨S2000x300, .f32⟩
  | .local _ .vmem, ⟨22, _⟩ => ⟨S2000x300, .f32⟩
  | .local _ .vmem, ⟨23, _⟩ => ⟨S300x300, .f32⟩
  | .local _ .vmem, ⟨24, _⟩ => ⟨S2000x300, .f32⟩
  | .local _ .vmem, ⟨25, _⟩ => ⟨S2000x300, .f32⟩
  | .local _ .vmem, ⟨26, _⟩ => ⟨S2000x300, .bf16⟩
  | .local _ .vmem, ⟨27, _⟩ => ⟨S2000x300, .bf16⟩
  | .local _ .vmem, ⟨28, _⟩ => ⟨S2000x133, .f32⟩
  | .local _ .vmem, ⟨29, _⟩ => ⟨S2000x133, .f32⟩
  | .local _ .vmem, ⟨30, _⟩ => ⟨S2000x300, .f32⟩
  | .local _ .vmem, ⟨31, _⟩ => ⟨S2000x300, .f32⟩
  | .local _ .vmem, ⟨32, _⟩ => ⟨S133x300, .f32⟩
  | .local _ .vmem, ⟨33, _⟩ => ⟨S300x300, .f32⟩
  | .local _ .vmem, ⟨34, _⟩ => ⟨S1x300, .f32⟩
  | .local _ .vmem, ⟨35, _⟩ => ⟨S2000x300, .f32⟩
  | .local _ .vmem, ⟨36, _⟩ => ⟨S2000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_v63 : Ref sig .tc := ⟨.hbm, 92, rfl⟩
abbrev main_c_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_17 : Ref sig .tc := ⟨.hbm, 100, rfl⟩
abbrev main_v70 : Ref sig .tc := ⟨.hbm, 101, rfl⟩
abbrev main_v71 : Ref sig .tc := ⟨.hbm, 102, rfl⟩
abbrev main_c_18 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_19 : Ref sig .tc := ⟨.hbm, 111, rfl⟩
abbrev main_v79 : Ref sig .tc := ⟨.hbm, 112, rfl⟩
abbrev main_v80 : Ref sig .tc := ⟨.hbm, 113, rfl⟩
abbrev main_c_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_21 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_22 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_23 : Ref sig .tc := ⟨.hbm, 131, rfl⟩
abbrev main_v95 : Ref sig .tc := ⟨.hbm, 132, rfl⟩
abbrev main_cst_24 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_25 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem5_1 : DmaSem sig := 36

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S300x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x300 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S300x300 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x300 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x300 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S300x300 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x300 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x300 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x133 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S133x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S300x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x300 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S2000x147_S2000x147_0_0 : ∀ a, (![0, 0] : Fin 2 → Nat) a + S2000x147.size a ≤ S2000x147.size a
  h_S2000x147 : 0 < S2000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S2000x300_S2000x300_0_0 : ∀ a, (![0, 0] : Fin 2 → Nat) a + S2000x300.size a ≤ S2000x300.size a
  h_S2000x300 : 0 < S2000x300.numel
  packedbf16_S2000x300_S2000x300_0_0 : (Rect.unit (s := S2000x300) ![0, 0] S2000x300.size inb_S2000x300_S2000x300_0_0).PackedRows (EltTy.packing .bf16)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S2000x300_S2000x300 : S2000x300.ShapeCasts S2000x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  shapeCasts_S300_S1x300 : S300.ShapeCasts S1x300
  inb_S2000x133_S2000x133_0_0 : ∀ a, (![0, 0] : Fin 2 → Nat) a + S2000x133.size a ≤ S2000x133.size a
  h_S2000x133 : 0 < S2000x133.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S_S8192x300 : S_.BroadcastsInDim S8192x300 (![] : Fin 0 → Fin S8192x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x300_0_1 : S8192x1.BroadcastsInDim S8192x300 (![0, 1] : Fin 2 → Fin S8192x300.rank)
  dot_S2000x147_S147x300_S2000x300_1_0_0_1_n_n_wf : DotDims.WF S2000x147 S147x300 S2000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S2000x300_S300x300_S2000x300_1_0_0_1_n_n_wf : DotDims.WF S2000x300 S300x300 S2000x300 [1] [0] [0] [1] [] []
  dot_S2000x133_S133x300_S2000x300_1_0_0_1_n_n_wf : DotDims.WF S2000x133 S133x300 S2000x300 [1] [0] [0] [1] [] []
  scatter_S8192x300_S100000x1_S100000x300_1_0_0_1_wf : ScatterDims.WF S8192x300 S100000x1 S100000x300 [1] [0] [0] 1
  scatter_S8192_S100000x1_S100000_n_0_0_1_wf : ScatterDims.WF S8192 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x147.size a ≤ S200000x147.size a
  hwx0_0 : ∀ i : grid0.Coords, EltTy.bits .f32 = 32 ∨ (Rect.block (s := S200000x147) S2000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x300.size a ≤ S200000x300.size a
  hwx0_2 : ∀ i : grid0.Coords, EltTy.bits .f32 = 32 ∨ (Rect.block (s := S200000x300) S2000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S200000x300.size a
  hwx0_3 : ∀ i : grid0.Coords, EltTy.bits .bf16 = 32 ∨ (Rect.block (s := S200000x300) S2000x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S200000x300.size a
  hwx1_0 : ∀ i : grid1.Coords, EltTy.bits .f32 = 32 ∨ (Rect.block (s := S200000x300) S2000x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x300.size a ≤ S300x300.size a
  hwx1_1 : ∀ i : grid1.Coords, EltTy.bits .f32 = 32 ∨ (Rect.block (s := S300x300) S300x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x300.size a ≤ S200000x300.size a
  hwx1_2 : ∀ i : grid1.Coords, EltTy.bits .f32 = 32 ∨ (Rect.block (s := S200000x300) S2000x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x300.size a ≤ S200000x300.size a
  hwx1_3 : ∀ i : grid1.Coords, EltTy.bits .bf16 = 32 ∨ (Rect.block (s := S200000x300) S2000x300.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x300.size a ≤ S200000x300.size a
  hwx2_0 : ∀ i : grid2.Coords, EltTy.bits .f32 = 32 ∨ (Rect.block (s := S200000x300) S2000x300.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S300x300.size a ≤ S300x300.size a
  hwx2_1 : ∀ i : grid2.Coords, EltTy.bits .f32 = 32 ∨ (Rect.block (s := S300x300) S300x300.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x300.size a ≤ S200000x300.size a
  hwx2_2 : ∀ i : grid2.Coords, EltTy.bits .f32 = 32 ∨ (Rect.block (s := S200000x300) S2000x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x300.size a ≤ S200000x300.size a
  hwx2_3 : ∀ i : grid2.Coords, EltTy.bits .bf16 = 32 ∨ (Rect.block (s := S200000x300) S2000x300.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x300.size a ≤ S200000x300.size a
  hwx3_0 : ∀ i : grid3.Coords, EltTy.bits .f32 = 32 ∨ (Rect.block (s := S200000x300) S2000x300.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S300x300.size a ≤ S300x300.size a
  hwx3_1 : ∀ i : grid3.Coords, EltTy.bits .f32 = 32 ∨ (Rect.block (s := S300x300) S300x300.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x300.size a ≤ S200000x300.size a
  hwx3_2 : ∀ i : grid3.Coords, EltTy.bits .f32 = 32 ∨ (Rect.block (s := S200000x300) S2000x300.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x300.size a ≤ S200000x300.size a
  hwx3_3 : ∀ i : grid3.Coords, EltTy.bits .bf16 = 32 ∨ (Rect.block (s := S200000x300) S2000x300.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x133.size a ≤ S100000x133.size a
  hwx4_0 : ∀ i : grid4.Coords, EltTy.bits .f32 = 32 ∨ (Rect.block (s := S100000x133) S2000x133.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x300.size a ≤ S100000x300.size a
  hwx4_1 : ∀ i : grid4.Coords, EltTy.bits .f32 = 32 ∨ (Rect.block (s := S100000x300) S2000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S133x300.size a ≤ S133x300.size a
  hwx4_2 : ∀ i : grid4.Coords, EltTy.bits .f32 = 32 ∨ (Rect.block (s := S133x300) S133x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S300x300.size a ≤ S300x300.size a
  hwx4_3 : ∀ i : grid4.Coords, EltTy.bits .f32 = 32 ∨ (Rect.block (s := S300x300) S300x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x300.size a ≤ S1x300.size a
  hwx4_4 : ∀ i : grid4.Coords, EltTy.bits .f32 = 32 ∨ (Rect.block (s := S1x300) S1x300.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x300.size a ≤ S100000x300.size a
  hwx4_5 : ∀ i : grid4.Coords, EltTy.bits .f32 = 32 ∨ (Rect.block (s := S100000x300) S2000x300.size (cc4_transform_5 i) (hinb4_5 i)).WholeWords (EltTy.packing .f32)

variable [Facts₀]

def dot_S2000x147_S147x300_S2000x300_1_0_0_1_n_n : DotDims S2000x147 S147x300 S2000x300 where
  lhsContracting := [1]
  rhsContracting := [0]
  lhsNonContracting := [0]
  rhsNonContracting := [1]
  lhsBatch := []
  rhsBatch := []
  wf := dot_S2000x147_S147x300_S2000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def dot_S2000x133_S133x300_S2000x300_1_0_0_1_n_n : DotDims S2000x133 S133x300 S2000x300 where
  lhsContracting := [1]
  rhsContracting := [0]
  lhsNonContracting := [0]
  rhsNonContracting := [1]
  lhsBatch := []
  rhsBatch := []
  wf := dot_S2000x133_S133x300_S2000x300_1_0_0_1_n_n_wf
def scatter_S8192x300_S100000x1_S100000x300_1_0_0_1 : ScatterDims S8192x300 S100000x1 S100000x300 where
  updateWindowDims := [1]
  insertedWindowDims := [0]
  scatterDimsToOperandDims := [0]
  indexVectorDim := 1
  wf := scatter_S8192x300_S100000x1_S100000x300_1_0_0_1_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf

abbrev win0_0 : Pipeline.Window sig grid0 :=
  Pipeline.Window.ofSpec (Memref.whole main_arg1) S2000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S300x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S2000x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S2000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S300x300.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S2000x300.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S2000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S2000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S300x300.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S2000x300.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v78) S2000x300.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S2000x133.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S2000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v88) S133x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S300x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S2000x300.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S100000x6 : Shape := ⟨2, ![100000, 6]⟩
abbrev S200000 : Shape := ⟨1, ![200000]⟩
abbrev S100000 : Shape := ⟨1, ![100000]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S8192x300 : Shape := ⟨2, ![8192, 300]⟩
abbrev S100000x1 : Shape := ⟨2, ![100000, 1]⟩
abbrev S8192 : Shape := ⟨1, ![8192]⟩
abbrev S8192x1 : Shape := ⟨2, ![8192, 1]⟩

abbrev nBuf : Space → Nat
  | .hbm => 154
  | .vmem => 0
  | .smem => 0
  | _ => 0

abbrev hbmTy0_0 (i : Nat) : BufTy := match i % 128 with
  | 0 => ⟨S100000x133, .f32⟩
  | 1 => ⟨S200000x147, .f32⟩
  | 2 => ⟨S147x300, .f32⟩
  | 3 => ⟨S300x300, .f32⟩
  | 4 => ⟨S433x300, .f32⟩
  | 5 => ⟨S300, .f32⟩
  | 6 => ⟨S100000x6, .i32⟩
  | 7 => ⟨S200000, .i32⟩
  | 8 => ⟨S200000, .i32⟩
  | 9 => ⟨S100000, .i32⟩
  | 10 => ⟨S200000x300, .f32⟩
  | 11 => ⟨S_, .f32⟩
  | 12 => ⟨S200000x300, .f32⟩
  | 13 => ⟨S200000x300, .f32⟩
  | 14 => ⟨S_, .i32⟩
  | 15 => ⟨S100000x6, .i32⟩
  | 16 => ⟨S100000x6, .i1⟩
  | 17 => ⟨S_, .i32⟩
  | 18 => ⟨S100000x6, .i32⟩
  | 19 => ⟨S100000x6, .i32⟩
  | 20 => ⟨S100000x6, .i32⟩
  | 21 => ⟨S100000x6x1, .i32⟩
  | 22 => ⟨S100000x6x300, .f32⟩
  | 23 => ⟨S_, .f32⟩
  | 24 => ⟨S100000x300, .f32⟩
  | 25 => ⟨S_, .i32⟩
  | 26 => ⟨S200000, .i32⟩
  | 27 => ⟨S200000, .i1⟩
  | 28 => ⟨S_, .i32⟩
  | 29 => ⟨S200000, .i32⟩
  | 30 => ⟨S200000, .i32⟩
  | 31 => ⟨S200000, .i32⟩
  | 32 => ⟨S200000x1, .i32⟩
  | 33 => ⟨S200000x300, .f32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x300, .f32⟩
  | 43 => ⟨S200000x300, .f32⟩
  | 44 => ⟨S200000x300, .f32⟩
  | 45 => ⟨S200000x300, .f32⟩
  | 46 => ⟨S_, .f32⟩
  | 47 => ⟨S200000x300, .f32⟩
  | 48 => ⟨S200000x300, .f32⟩
  | 49 => ⟨S_, .i32⟩
  | 50 => ⟨S100000x6, .i32⟩
  | 51 => ⟨S100000x6, .i1⟩
  | 52 => ⟨S_, .i32⟩
  | 53 => ⟨S100000x6, .i32⟩
  | 54 => ⟨S100000x6, .i32⟩
  | 55 => ⟨S100000x6, .i32⟩
  | 56 => ⟨S100000x6x1, .i32⟩
  | 57 => ⟨S100000x6x300, .f32⟩
  | 58 => ⟨S_, .f32⟩
  | 59 => ⟨S100000x300, .f32⟩
  | 60 => ⟨S_, .i32⟩
  | 61 => ⟨S200000, .i32⟩
  | 62 => ⟨S200000, .i1⟩
  | 63 => ⟨S_, .i32⟩
  | 64 => ⟨S200000, .i32⟩
  | 65 => ⟨S200000, .i32⟩
  | 66 => ⟨S200000, .i32⟩
  | 67 => ⟨S200000x1, .i32⟩
  | 68 => ⟨S200000x300, .f32⟩
  | 69 => ⟨S_, .i32⟩
  | 70 => ⟨S200000, .i32⟩
  | 71 => ⟨S200000, .i1⟩
  | 72 => ⟨S_, .i32⟩
  | 73 => ⟨S200000, .i32⟩
  | 74 => ⟨S200000, .i32⟩
  | 75 => ⟨S200000, .i32⟩
  | 76 => ⟨S200000x1, .i32⟩
  | 77 => ⟨S200000x300, .f32⟩
  | 78 => ⟨S200000x300, .f32⟩
  | 79 => ⟨S200000x300, .f32⟩
  | 80 => ⟨S200000x300, .f32⟩
  | 81 => ⟨S_, .f32⟩
  | 82 => ⟨S200000x300, .f32⟩
  | 83 => ⟨S200000x300, .f32⟩
  | 84 => ⟨S_, .i32⟩
  | 85 => ⟨S100000x6, .i32⟩
  | 86 => ⟨S100000x6, .i1⟩
  | 87 => ⟨S_, .i32⟩
  | 88 => ⟨S100000x6, .i32⟩
  | 89 => ⟨S100000x6, .i32⟩
  | 90 => ⟨S100000x6, .i32⟩
  | 91 => ⟨S100000x6x1, .i32⟩
  | 92 => ⟨S100000x6x300, .f32⟩
  | 93 => ⟨S_, .f32⟩
  | 94 => ⟨S100000x300, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x300, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x300, .f32⟩
  | 113 => ⟨S200000x300, .f32⟩
  | 114 => ⟨S200000x300, .f32⟩
  | 115 => ⟨S200000x300, .f32⟩
  | 116 => ⟨S_, .f32⟩
  | 117 => ⟨S200000x300, .f32⟩
  | 118 => ⟨S200000x300, .f32⟩
  | 119 => ⟨S_, .i32⟩
  | 120 => ⟨S100000x6, .i32⟩
  | 121 => ⟨S100000x6, .i1⟩
  | 122 => ⟨S_, .i32⟩
  | 123 => ⟨S100000x6, .i32⟩
  | 124 => ⟨S100000x6, .i32⟩
  | 125 => ⟨S100000x6, .i32⟩
  | 126 => ⟨S100000x6x1, .i32⟩
  | 127 => ⟨S100000x6x300, .f32⟩
  | _ => ⟨S100000x133, .f32⟩

abbrev hbmTy0_1 (i : Nat) : BufTy := match i % 128 with
  | 0 => ⟨S_, .f32⟩
  | 1 => ⟨S100000x300, .f32⟩
  | 2 => ⟨S100000x433, .f32⟩
  | 3 => ⟨S100000x300, .f32⟩
  | 4 => ⟨S1x300, .f32⟩
  | 5 => ⟨S100000x300, .f32⟩
  | 6 => ⟨S100000x300, .f32⟩
  | 7 => ⟨S_, .f32⟩
  | 8 => ⟨S100000x300, .f32⟩
  | 9 => ⟨S100000x300, .f32⟩
  | 10 => ⟨S_, .f32⟩
  | 11 => ⟨S8192x300, .f32⟩
  | 12 => ⟨S100000x1, .i32⟩
  | 13 => ⟨S8192x300, .f32⟩
  | 14 => ⟨S_, .f32⟩
  | 15 => ⟨S100000, .f32⟩
  | 16 => ⟨S_, .f32⟩
  | 17 => ⟨S8192, .f32⟩
  | 18 => ⟨S100000x1, .i32⟩
  | 19 => ⟨S8192, .f32⟩
  | 20 => ⟨S_, .f32⟩
  | 21 => ⟨S8192, .f32⟩
  | 22 => ⟨S8192, .f32⟩
  | 23 => ⟨S8192x1, .f32⟩
  | 24 => ⟨S8192x300, .f32⟩
  | 25 => ⟨S8192x300, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_v63 : Ref sig .tc := ⟨.hbm, 97, rfl⟩
abbrev main_c_16 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_17 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call3_cst : Ref sig .tc := ⟨.hbm, 116, rfl⟩
abbrev main_call3_v0 : Ref sig .tc := ⟨.hbm, 117, rfl⟩
abbrev main_v79 : Ref sig .tc := ⟨.hbm, 118, rfl⟩
abbrev main_c_19 : Ref sig .tc := ⟨.hbm, 119, rfl⟩
abbrev main_v80 : Ref sig .tc := ⟨.hbm, 120, rfl⟩
abbrev main_v81 : Ref sig .tc := ⟨.hbm, 121, rfl⟩
abbrev main_c_20 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_21 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call4_cst : Ref sig .tc := ⟨.hbm, 135, rfl⟩
abbrev main_call4_v0 : Ref sig .tc := ⟨.hbm, 136, rfl⟩
abbrev main_v93 : Ref sig .tc := ⟨.hbm, 137, rfl⟩
abbrev main_cst_22 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_23 : Ref sig .tc := ⟨.hbm, 142, rfl⟩
abbrev main_v97 : Ref sig .tc := ⟨.hbm, 143, rfl⟩
abbrev main_cst_24 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_25 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S8192x300 : S_.BroadcastsInDim S8192x300 (![] : Fin 0 → Fin S8192x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x300_0_1 : S8192x1.BroadcastsInDim S8192x300 (![0, 1] : Fin 2 → Fin S8192x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S8192x300_S100000x1_S100000x300_1_0_0_1_wf : ScatterDims.WF S8192x300 S100000x1 S100000x300 [1] [0] [0] 1
  scatter_S8192_S100000x1_S100000_n_0_0_1_wf : ScatterDims.WF S8192 S100000x1 S100000 [] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S8192x300_S100000x1_S100000x300_1_0_0_1 : ScatterDims S8192x300 S100000x1 S100000x300 where
  updateWindowDims := [1]
  insertedWindowDims := [0]
  scatterDimsToOperandDims := [0]
  indexVectorDim := 1
  wf := scatter_S8192x300_S100000x1_S100000x300_1_0_0_1_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf

class Facts : Prop extends Facts₀ where

variable [Facts]
-- ==== Proof.KernelRun.lean ====
/-
  The idealized kernel's run, with its result named.

  The five launches and the host operations between them run as a chain of segments; at each boundary every buffer
  holds a value computed from the launch memory by a fold: a launch replaces its output arrays by what its grid points
  wrote back, a stretch of host operations replaces each result buffer by the operation's value. The frame of the
  program only keeps the argument arrays out of that fold's last stage; here the same run is stated with the result
  buffer read at the last stage as well, so that the value proof can compute it stage by stage.
-/
import proofs.«153127_j15444702396779_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last stage of the fold, and
    the argument arrays end as launched. -/
theorem run : θ_run defs (onTc (τ := τ) (main (F := F))) ⟨m, fun _ => 0, ρ⟩ (fun r => ∀ c : Dev nD,
      r.2.mem ((c.tc : Thread nD τ).loc main_v103) = W10 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v103 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Result

end
-- ==== Proof.KernelArgs.lean ====
/-
  The argument arrays along the run.

  No launch writes an argument array (a launch reads it through an input window, or does not touch it), and no host
  operation does: so at every boundary of the run an argument buffer still holds what the launch memory held. This
  module walks each argument the value proof reads back to the launch memory, one boundary at a time.
-/
import proofs.«153127_j15444702396779_2_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Stages

open Cert.KernelIdeal Cert.KernelIdeal.Gen

/-- A stretch of host operations leaves a buffer none of them writes as it was. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

theorem arg0_at1 : W1 m ρ c (Proc.devRef .tc main_arg0) = m ((c : Thread nD τ).loc main_arg0) :=
  (show W1 m ρ c (Proc.devRef .tc main_arg0) = W0 m ρ c (Proc.devRef .tc main_arg0) from W1_of_ne m ρ c main_arg0 (by decide)).trans rfl
theorem arg0_at2 : W2 m ρ c (Proc.devRef .tc main_arg0) = m ((c : Thread nD τ).loc main_arg0) :=
  (show W2 m ρ c (Proc.devRef .tc main_arg0) = W1 m ρ c (Proc.devRef .tc main_arg0) from by host_keeps hostOps1).trans (arg0_at1 m ρ c)
theorem arg0_at3 : W3 m ρ c (Proc.devRef .tc main_arg0) = m ((c : Thread nD τ).loc main_arg0) :=
  (show W3 m ρ c (Proc.devRef .tc main_arg0) = W2 m ρ c (Proc.devRef .tc main_arg0) from W3_of_ne m ρ c main_arg0 (by decide)).trans (arg0_at2 m ρ c)
theorem arg0_at4 : W4 m ρ c (Proc.devRef .tc main_arg0) = m ((c : Thread nD τ).loc main_arg0) :=
  (show W4 m ρ c (Proc.devRef .tc main_arg0) = W3 m ρ c (Proc.devRef .tc main_arg0) from by host_keeps hostOps2).trans (arg0_at3 m ρ c)
theorem arg0_at5 : W5 m ρ c (Proc.devRef .tc main_arg0) = m ((c : Thread nD τ).loc main_arg0) :=
  (show W5 m ρ c (Proc.devRef .tc main_arg0) = W4 m ρ c (Proc.devRef .tc main_arg0) from W5_of_ne m ρ c main_arg0 (by decide)).trans (arg0_at4 m ρ c)
theorem arg0_at6 : W6 m ρ c (Proc.devRef .tc main_arg0) = m ((c : Thread nD τ).loc main_arg0) :=
  (show W6 m ρ c (Proc.devRef .tc main_arg0) = W5 m ρ c (Proc.devRef .tc main_arg0) from by host_keeps hostOps3).trans (arg0_at5 m ρ c)
theorem arg0_at7 : W7 m ρ c (Proc.devRef .tc main_arg0) = m ((c : Thread nD τ).loc main_arg0) :=
  (show W7 m ρ c (Proc.devRef .tc main_arg0) = W6 m ρ c (Proc.devRef .tc main_arg0) from W7_of_ne m ρ c main_arg0 (by decide)).trans (arg0_at6 m ρ c)
theorem arg0_at8 : W8 m ρ c (Proc.devRef .tc main_arg0) = m ((c : Thread nD τ).loc main_arg0) :=
  (show W8 m ρ c (Proc.devRef .tc main_arg0) = W7 m ρ c (Proc.devRef .tc main_arg0) from by host_keeps hostOps4).trans (arg0_at7 m ρ c)
theorem arg3_at1 : W1 m ρ c (Proc.devRef .tc main_arg3) = m ((c : Thread nD τ).loc main_arg3) :=
  (show W1 m ρ c (Proc.devRef .tc main_arg3) = W0 m ρ c (Proc.devRef .tc main_arg3) from W1_of_ne m ρ c main_arg3 (by decide)).trans rfl
theorem arg3_at2 : W2 m ρ c (Proc.devRef .tc main_arg3) = m ((c : Thread nD τ).loc main_arg3) :=
  (show W2 m ρ c (Proc.devRef .tc main_arg3) = W1 m ρ c (Proc.devRef .tc main_arg3) from by host_keeps hostOps1).trans (arg3_at1 m ρ c)
theorem arg3_at3 : W3 m ρ c (Proc.devRef .tc main_arg3) = m ((c : Thread nD τ).loc main_arg3) :=
  (show W3 m ρ c (Proc.devRef .tc main_arg3) = W2 m ρ c (Proc.devRef .tc main_arg3) from (W3_arr m ρ c 1).trans (((dat1 (V2 m ρ) c).arrAt_in 1 rfl _).trans (A_eq1 (V2 m ρ) c 1))).trans (arg3_at2 m ρ c)
theorem arg3_at4 : W4 m ρ c (Proc.devRef .tc main_arg3) = m ((c : Thread nD τ).loc main_arg3) :=
  (show W4 m ρ c (Proc.devRef .tc main_arg3) = W3 m ρ c (Proc.devRef .tc main_arg3) from by host_keeps hostOps2).trans (arg3_at3 m ρ c)
theorem arg3_at5 : W5 m ρ c (Proc.devRef .tc main_arg3) = m ((c : Thread nD τ).loc main_arg3) :=
  (show W5 m ρ c (Proc.devRef .tc main_arg3) = W4 m ρ c (Proc.devRef .tc main_arg3) from (W5_arr m ρ c 1).trans (((dat2 (V4 m ρ) c).arrAt_in 1 rfl _).trans (A_eq2 (V4 m ρ) c 1))).trans (arg3_at4 m ρ c)
theorem arg3_at6 : W6 m ρ c (Proc.devRef .tc main_arg3) = m ((c : Thread nD τ).loc main_arg3) :=
  (show W6 m ρ c (Proc.devRef .tc main_arg3) = W5 m ρ c (Proc.devRef .tc main_arg3) from by host_keeps hostOps3).trans (arg3_at5 m ρ c)
theorem arg4_at1 : W1 m ρ c (Proc.devRef .tc main_arg4) = m ((c : Thread nD τ).loc main_arg4) :=
  (show W1 m ρ c (Proc.devRef .tc main_arg4) = W0 m ρ c (Proc.devRef .tc main_arg4) from W1_of_ne m ρ c main_arg4 (by decide)).trans rfl
theorem arg4_at2 : W2 m ρ c (Proc.devRef .tc main_arg4) = m ((c : Thread nD τ).loc main_arg4) :=
  (show W2 m ρ c (Proc.devRef .tc main_arg4) = W1 m ρ c (Proc.devRef .tc main_arg4) from by host_keeps hostOps1).trans (arg4_at1 m ρ c)
theorem arg4_at3 : W3 m ρ c (Proc.devRef .tc main_arg4) = m ((c : Thread nD τ).loc main_arg4) :=
  (show W3 m ρ c (Proc.devRef .tc main_arg4) = W2 m ρ c (Proc.devRef .tc main_arg4) from W3_of_ne m ρ c main_arg4 (by decide)).trans (arg4_at2 m ρ c)
theorem arg4_at4 : W4 m ρ c (Proc.devRef .tc main_arg4) = m ((c : Thread nD τ).loc main_arg4) :=
  (show W4 m ρ c (Proc.devRef .tc main_arg4) = W3 m ρ c (Proc.devRef .tc main_arg4) from by host_keeps hostOps2).trans (arg4_at3 m ρ c)
theorem arg4_at5 : W5 m ρ c (Proc.devRef .tc main_arg4) = m ((c : Thread nD τ).loc main_arg4) :=
  (show W5 m ρ c (Proc.devRef .tc main_arg4) = W4 m ρ c (Proc.devRef .tc main_arg4) from W5_of_ne m ρ c main_arg4 (by decide)).trans (arg4_at4 m ρ c)
theorem arg4_at6 : W6 m ρ c (Proc.devRef .tc main_arg4) = m ((c : Thread nD τ).loc main_arg4) :=
  (show W6 m ρ c (Proc.devRef .tc main_arg4) = W5 m ρ c (Proc.devRef .tc main_arg4) from by host_keeps hostOps3).trans (arg4_at5 m ρ c)
theorem arg4_at7 : W7 m ρ c (Proc.devRef .tc main_arg4) = m ((c : Thread nD τ).loc main_arg4) :=
  (show W7 m ρ c (Proc.devRef .tc main_arg4) = W6 m ρ c (Proc.devRef .tc main_arg4) from W7_of_ne m ρ c main_arg4 (by decide)).trans (arg4_at6 m ρ c)
theorem arg5_at1 : W1 m ρ c (Proc.devRef .tc main_arg5) = m ((c : Thread nD τ).loc main_arg5) :=
  (show W1 m ρ c (Proc.devRef .tc main_arg5) = W0 m ρ c (Proc.devRef .tc main_arg5) from W1_of_ne m ρ c main_arg5 (by decide)).trans rfl
theorem arg5_at2 : W2 m ρ c (Proc.devRef .tc main_arg5) = m ((c : Thread nD τ).loc main_arg5) :=
  (show W2 m ρ c (Proc.devRef .tc main_arg5) = W1 m ρ c (Proc.devRef .tc main_arg5) from by host_keeps hostOps1).trans (arg5_at1 m ρ c)
theorem arg5_at3 : W3 m ρ c (Proc.devRef .tc main_arg5) = m ((c : Thread nD τ).loc main_arg5) :=
  (show W3 m ρ c (Proc.devRef .tc main_arg5) = W2 m ρ c (Proc.devRef .tc main_arg5) from W3_of_ne m ρ c main_arg5 (by decide)).trans (arg5_at2 m ρ c)
theorem arg5_at4 : W4 m ρ c (Proc.devRef .tc main_arg5) = m ((c : Thread nD τ).loc main_arg5) :=
  (show W4 m ρ c (Proc.devRef .tc main_arg5) = W3 m ρ c (Proc.devRef .tc main_arg5) from by host_keeps hostOps2).trans (arg5_at3 m ρ c)
theorem arg5_at5 : W5 m ρ c (Proc.devRef .tc main_arg5) = m ((c : Thread nD τ).loc main_arg5) :=
  (show W5 m ρ c (Proc.devRef .tc main_arg5) = W4 m ρ c (Proc.devRef .tc main_arg5) from W5_of_ne m ρ c main_arg5 (by decide)).trans (arg5_at4 m ρ c)
theorem arg5_at6 : W6 m ρ c (Proc.devRef .tc main_arg5) = m ((c : Thread nD τ).loc main_arg5) :=
  (show W6 m ρ c (Proc.devRef .tc main_arg5) = W5 m ρ c (Proc.devRef .tc main_arg5) from by host_keeps hostOps3).trans (arg5_at5 m ρ c)
theorem arg5_at7 : W7 m ρ c (Proc.devRef .tc main_arg5) = m ((c : Thread nD τ).loc main_arg5) :=
  (show W7 m ρ c (Proc.devRef .tc main_arg5) = W6 m ρ c (Proc.devRef .tc main_arg5) from W7_of_ne m ρ c main_arg5 (by decide)).trans (arg5_at6 m ρ c)
theorem arg6_at1 : W1 m ρ c (Proc.devRef .tc main_arg6) = m ((c : Thread nD τ).loc main_arg6) :=
  (show W1 m ρ c (Proc.devRef .tc main_arg6) = W0 m ρ c (Proc.devRef .tc main_arg6) from W1_of_ne m ρ c main_arg6 (by decide)).trans rfl
theorem arg6_at2 : W2 m ρ c (Proc.devRef .tc main_arg6) = m ((c : Thread nD τ).loc main_arg6) :=
  (show W2 m ρ c (Proc.devRef .tc main_arg6) = W1 m ρ c (Proc.devRef .tc main_arg6) from by host_keeps hostOps1).trans (arg6_at1 m ρ c)
theorem arg6_at3 : W3 m ρ c (Proc.devRef .tc main_arg6) = m ((c : Thread nD τ).loc main_arg6) :=
  (show W3 m ρ c (Proc.devRef .tc main_arg6) = W2 m ρ c (Proc.devRef .tc main_arg6) from W3_of_ne m ρ c main_arg6 (by decide)).trans (arg6_at2 m ρ c)
theorem arg6_at4 : W4 m ρ c (Proc.devRef .tc main_arg6) = m ((c : Thread nD τ).loc main_arg6) :=
  (show W4 m ρ c (Proc.devRef .tc main_arg6) = W3 m ρ c (Proc.devRef .tc main_arg6) from by host_keeps hostOps2).trans (arg6_at3 m ρ c)
theorem arg6_at5 : W5 m ρ c (Proc.devRef .tc main_arg6) = m ((c : Thread nD τ).loc main_arg6) :=
  (show W5 m ρ c (Proc.devRef .tc main_arg6) = W4 m ρ c (Proc.devRef .tc main_arg6) from W5_of_ne m ρ c main_arg6 (by decide)).trans (arg6_at4 m ρ c)
theorem arg6_at6 : W6 m ρ c (Proc.devRef .tc main_arg6) = m ((c : Thread nD τ).loc main_arg6) :=
  (show W6 m ρ c (Proc.devRef .tc main_arg6) = W5 m ρ c (Proc.devRef .tc main_arg6) from by host_keeps hostOps3).trans (arg6_at5 m ρ c)
theorem arg6_at7 : W7 m ρ c (Proc.devRef .tc main_arg6) = m ((c : Thread nD τ).loc main_arg6) :=
  (show W7 m ρ c (Proc.devRef .tc main_arg6) = W6 m ρ c (Proc.devRef .tc main_arg6) from W7_of_ne m ρ c main_arg6 (by decide)).trans (arg6_at6 m ρ c)
theorem arg7_at1 : W1 m ρ c (Proc.devRef .tc main_arg7) = m ((c : Thread nD τ).loc main_arg7) :=
  (show W1 m ρ c (Proc.devRef .tc main_arg7) = W0 m ρ c (Proc.devRef .tc main_arg7) from W1_of_ne m ρ c main_arg7 (by decide)).trans rfl
theorem arg7_at2 : W2 m ρ c (Proc.devRef .tc main_arg7) = m ((c : Thread nD τ).loc main_arg7) :=
  (show W2 m ρ c (Proc.devRef .tc main_arg7) = W1 m ρ c (Proc.devRef .tc main_arg7) from by host_keeps hostOps1).trans (arg7_at1 m ρ c)
theorem arg7_at3 : W3 m ρ c (Proc.devRef .tc main_arg7) = m ((c : Thread nD τ).loc main_arg7) :=
  (show W3 m ρ c (Proc.devRef .tc main_arg7) = W2 m ρ c (Proc.devRef .tc main_arg7) from W3_of_ne m ρ c main_arg7 (by decide)).trans (arg7_at2 m ρ c)
theorem arg7_at4 : W4 m ρ c (Proc.devRef .tc main_arg7) = m ((c : Thread nD τ).loc main_arg7) :=
  (show W4 m ρ c (Proc.devRef .tc main_arg7) = W3 m ρ c (Proc.devRef .tc main_arg7) from by host_keeps hostOps2).trans (arg7_at3 m ρ c)
theorem arg7_at5 : W5 m ρ c (Proc.devRef .tc main_arg7) = m ((c : Thread nD τ).loc main_arg7) :=
  (show W5 m ρ c (Proc.devRef .tc main_arg7) = W4 m ρ c (Proc.devRef .tc main_arg7) from W5_of_ne m ρ c main_arg7 (by decide)).trans (arg7_at4 m ρ c)
theorem arg8_at1 : W1 m ρ c (Proc.devRef .tc main_arg8) = m ((c : Thread nD τ).loc main_arg8) :=
  (show W1 m ρ c (Proc.devRef .tc main_arg8) = W0 m ρ c (Proc.devRef .tc main_arg8) from W1_of_ne m ρ c main_arg8 (by decide)).trans rfl
theorem arg8_at2 : W2 m ρ c (Proc.devRef .tc main_arg8) = m ((c : Thread nD τ).loc main_arg8) :=
  (show W2 m ρ c (Proc.devRef .tc main_arg8) = W1 m ρ c (Proc.devRef .tc main_arg8) from by host_keeps hostOps1).trans (arg8_at1 m ρ c)
theorem arg8_at3 : W3 m ρ c (Proc.devRef .tc main_arg8) = m ((c : Thread nD τ).loc main_arg8) :=
  (show W3 m ρ c (Proc.devRef .tc main_arg8) = W2 m ρ c (Proc.devRef .tc main_arg8) from W3_of_ne m ρ c main_arg8 (by decide)).trans (arg8_at2 m ρ c)
theorem arg8_at4 : W4 m ρ c (Proc.devRef .tc main_arg8) = m ((c : Thread nD τ).loc main_arg8) :=
  (show W4 m ρ c (Proc.devRef .tc main_arg8) = W3 m ρ c (Proc.devRef .tc main_arg8) from by host_keeps hostOps2).trans (arg8_at3 m ρ c)
theorem arg8_at5 : W5 m ρ c (Proc.devRef .tc main_arg8) = m ((c : Thread nD τ).loc main_arg8) :=
  (show W5 m ρ c (Proc.devRef .tc main_arg8) = W4 m ρ c (Proc.devRef .tc main_arg8) from W5_of_ne m ρ c main_arg8 (by decide)).trans (arg8_at4 m ρ c)
theorem arg9_at1 : W1 m ρ c (Proc.devRef .tc main_arg9) = m ((c : Thread nD τ).loc main_arg9) :=
  (show W1 m ρ c (Proc.devRef .tc main_arg9) = W0 m ρ c (Proc.devRef .tc main_arg9) from W1_of_ne m ρ c main_arg9 (by decide)).trans rfl
theorem arg9_at2 : W2 m ρ c (Proc.devRef .tc main_arg9) = m ((c : Thread nD τ).loc main_arg9) :=
  (show W2 m ρ c (Proc.devRef .tc main_arg9) = W1 m ρ c (Proc.devRef .tc main_arg9) from by host_keeps hostOps1).trans (arg9_at1 m ρ c)
theorem arg9_at3 : W3 m ρ c (Proc.devRef .tc main_arg9) = m ((c : Thread nD τ).loc main_arg9) :=
  (show W3 m ρ c (Proc.devRef .tc main_arg9) = W2 m ρ c (Proc.devRef .tc main_arg9) from W3_of_ne m ρ c main_arg9 (by decide)).trans (arg9_at2 m ρ c)
theorem arg9_at4 : W4 m ρ c (Proc.devRef .tc main_arg9) = m ((c : Thread nD τ).loc main_arg9) :=
  (show W4 m ρ c (Proc.devRef .tc main_arg9) = W3 m ρ c (Proc.devRef .tc main_arg9) from by host_keeps hostOps2).trans (arg9_at3 m ρ c)
theorem arg9_at5 : W5 m ρ c (Proc.devRef .tc main_arg9) = m ((c : Thread nD τ).loc main_arg9) :=
  (show W5 m ρ c (Proc.devRef .tc main_arg9) = W4 m ρ c (Proc.devRef .tc main_arg9) from W5_of_ne m ρ c main_arg9 (by decide)).trans (arg9_at4 m ρ c)
theorem arg9_at6 : W6 m ρ c (Proc.devRef .tc main_arg9) = m ((c : Thread nD τ).loc main_arg9) :=
  (show W6 m ρ c (Proc.devRef .tc main_arg9) = W5 m ρ c (Proc.devRef .tc main_arg9) from by host_keeps hostOps3).trans (arg9_at5 m ρ c)
theorem arg9_at7 : W7 m ρ c (Proc.devRef .tc main_arg9) = m ((c : Thread nD τ).loc main_arg9) :=
  (show W7 m ρ c (Proc.devRef .tc main_arg9) = W6 m ρ c (Proc.devRef .tc main_arg9) from W7_of_ne m ρ c main_arg9 (by decide)).trans (arg9_at6 m ρ c)
theorem arg9_at8 : W8 m ρ c (Proc.devRef .tc main_arg9) = m ((c : Thread nD τ).loc main_arg9) :=
  (show W8 m ρ c (Proc.devRef .tc main_arg9) = W7 m ρ c (Proc.devRef .tc main_arg9) from by host_keeps hostOps4).trans (arg9_at7 m ρ c)
theorem arg9_at9 : W9 m ρ c (Proc.devRef .tc main_arg9) = m ((c : Thread nD τ).loc main_arg9) :=
  (show W9 m ρ c (Proc.devRef .tc main_arg9) = W8 m ρ c (Proc.devRef .tc main_arg9) from W9_of_ne m ρ c main_arg9 (by decide)).trans (arg9_at8 m ρ c)

end Cert.KernelIdeal.Stages

end
-- ==== Proof.LibBlockProduct.lean ====
/-
  A matrix product against a concatenation, block by block, over the extended reals.

  `mm x w` is the matrix product read entry by entry: entry `(p, q)` is `Σ_k x (p, k) · w (k, q)`. When the left factor is
  a concatenation `[x | y]` along its columns, the sum over the `a + b` columns splits into the sum over the first `a` and the
  sum over the last `b`, so the product is the product of `x` with the first `a` rows of `w` plus the product of `y` with the
  last `b` rows. Nothing but regrouping one finite sum is used, so the law holds at infinite entries too. It is what joins a
  program that multiplies a concatenation `concat [x, y] @ W` to one that splits the weights, `x @ W[:a] + y @ W[a:]`.

  The hypotheses are stated entry by entry, so that the concatenation and the two row blocks can be any terms that read
  that way (a host `concatenate`, an `extractStridedSlice`, a window's block).
-/
import Idealize.ShloMosaic.PureOps.Ideal.Laws
import Idealize.ShloMosaic.Lib.ValueIdx

noncomputable section

open scoped BigOperators

namespace Idealize.ShloMosaic.BlockProduct

open Idealize.ShloMosaic Idealize.ShloMosaic.ValueIdx

/-- A matrix of extended reals with `r` rows and `c` columns. -/
abbrev Mat (r c : Nat) : Type := (⟨2, ![r, c]⟩ : Shape).Idx → EReal

/-- The matrix product: entry `(p, q)` is `Σ_k x (p, k) · w (k, q)`. -/
def mm {M K N : Nat} (x : Mat M K) (w : Mat K N) : Mat M N :=
  fun i => ∑ k : Fin K, x (ix2 (i 0) k) * w (ix2 k (i 1))

/-- The product at the index built from a row and a column. -/
theorem mm_apply {M K N : Nat} (x : Mat M K) (w : Mat K N) (p : Fin M) (q : Fin N) :
    mm x w (ix2 p q) = ∑ k : Fin K, x (ix2 p k) * w (ix2 k q) := rfl

/-- A product against a concatenation is the sum of the two products against the row blocks: with `cat = [x | y]` along the
    columns, `w₁` the first `a` rows of `w` and `w₂` the remaining `b`,
    `Σ_{k < a + b} cat (p, k) · w (k, q) = Σ_{k < a} x (p, k) · w₁ (k, q) + Σ_{k < b} y (p, k) · w₂ (k, q)`. -/
theorem mm_concat {A a b N : Nat} (x : Mat A a) (y : Mat A b) (cat : Mat A (a + b)) (w : Mat (a + b) N)
    (w₁ : Mat a N) (w₂ : Mat b N)
    (hx : ∀ (p : Fin A) (k : Fin a), cat (ix2 p (Fin.castAdd b k)) = x (ix2 p k))
    (hy : ∀ (p : Fin A) (k : Fin b), cat (ix2 p (Fin.natAdd a k)) = y (ix2 p k))
    (h₁ : ∀ (k : Fin a) (q : Fin N), w₁ (ix2 k q) = w (ix2 (Fin.castAdd b k) q))
    (h₂ : ∀ (k : Fin b) (q : Fin N), w₂ (ix2 k q) = w (ix2 (Fin.natAdd a k) q))
    (p : Fin A) (q : Fin N) :
    mm cat w (ix2 p q) = mm x w₁ (ix2 p q) + mm y w₂ (ix2 p q) := by
  rw [mm_apply, mm_apply, mm_apply, Fin.sum_univ_add]
  congr 1
  · exact Finset.sum_congr rfl fun k _ => by rw [hx, h₁]
  · exact Finset.sum_congr rfl fun k _ => by rw [hy, h₂]

end Idealize.ShloMosaic.BlockProduct

end
-- ==== Proof.Spec.lean ====
/-
  The stages of the message-passing network, index by index over the extended reals.

  Every stage of both programs is built from three things: a matrix product read as the sum over the contracted axis,
  the positive part `max · 0`, and an addition. This module states those stages as functions of whole arrays. The one law
  the two programs differ by, that a product against a concatenation is the sum of the products against the row blocks,
  is the block-product law it takes from the module it imports.
-/
import proofs.«153127_j15444702396779_2_alg».proof.Proof.LibBlockProduct

noncomputable section

open scoped BigOperators

namespace Cert.Mpn

open Idealize.ShloMosaic Idealize.ShloMosaic.ValueIdx

export Idealize.ShloMosaic.BlockProduct (Mat mm mm_apply mm_concat)

/-- The float zero both programs take the positive part against. -/
abbrev z : EReal := Ideal.ofBits .f32 0x00000000#32

/-- The positive part, entry by entry. -/
def relu {M N : Nat} (x : Mat M N) : Mat M N := fun i => max (x i) z

/-- One message update: the positive part of the initial bond term plus the product of the incoming messages' difference
    with the hidden weights. -/
def upd {M K N : Nat} (inp : Mat M N) (d : Mat M K) (w : Mat K N) : Mat M N :=
  fun i => max (inp i + mm d w i) z

/-- The atom readout with the output weights already cut into the block for the atom features and the block for the
    summed messages, and the bias held as a one-row matrix. -/
def readout {A K₁ K₂ N : Nat} (fa : Mat A K₁) (am : Mat A K₂) (w₁ : Mat K₁ N) (w₂ : Mat K₂ N) (b : Mat 1 N) : Mat A N :=
  fun i => max (mm fa w₁ i + mm am w₂ i + b (ix2 0 (i 1))) z

end Cert.Mpn

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.Region0.lean ====
/-
  The first launch: the initial bond term and the first messages.

  The grid has 100 points; point `t` reads rows `2000 t … 2000 t + 1999` of the bond features and the whole input
  weight matrix, and writes the same rows of two arrays: the product of its feature rows with the weights, and the
  positive part of that product. A row of a matrix product depends only on the same row of the left factor, so the
  blocks the points write are the row blocks of the whole product, and together they fill both arrays.
-/
import proofs.«153127_j15444702396779_2_alg».proof.Proof.Gen.KernelIdeal.Frame
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.BondInit

open Cert.KernelIdeal Cert.KernelIdeal.Gen Cert.Mpn

variable (V : (c : Dev nD) → (b : Ref sig .tc) → Buf (Elt Ideal) ((c : Thread nD τ).loc b))

theorem hz : (![0, 0] : Fin 2 → Nat) = fun _ => 0 := funext fun a => by fin_cases a <;> rfl

/-- The body's product at `(p, q)`: the sum over the 147 bond features. -/
theorem prod_apply (x : Vec Ideal S2000x147 .f32) (w : Vec Ideal S147x300 .f32) (p : Fin 2000) (q : Fin 300) :
    k0_pay1 x w (ix2 p q) = ∑ k : Fin 147, x (ix2 p k) * w (ix2 k q) := by
  unfold k0_pay1
  exact PlainDot.matmul_zero_apply (φ₁ := .bf16) (φ₂ := .bf16) none (truncf .bf16 x bitsLt_bf16_f32) (truncf .bf16 w bitsLt_bf16_f32) p q

/-- The body's second store at `(p, q)`: the positive part of the product. -/
theorem msg_apply (x : Vec Ideal S2000x147 .f32) (w : Vec Ideal S147x300 .f32) (p : Fin 2000) (q : Fin 300) :
    k0_pay2 x w (ix2 p q) = max (∑ k : Fin 147, x (ix2 p k) * w (ix2 k q)) z := by
  unfold k0_pay2
  exact congrArg (fun v => max v z) (prod_apply x w p q)

/-- Where each window's block sits at point `t`: the row tiles move with the point, the weights stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `(p, k)` of the feature block at point `t` is entry `(2000 t + p, k)` of the array. -/
theorem feat_block (c : Dev nD) (t : Fin cfg0.N) (p : Fin 2000) (k : Fin 147) (r : Fin 200000) (hr : r.val = t.val * 2000 + p.val) :
    iblk0 V c 0 t (ix2 p k) = (V c main_arg1 : S200000x147.Idx → EReal) (ix2 r k) := by
  obtain ⟨e00, e01, -⟩ := idx_facts t
  unfold iblk0
  rw [View.read_apply]
  show V c main_arg1 _ = V c main_arg1 _
  congr 1
  funext a
  apply Fin.ext
  match a with
  | ⟨0, _⟩ => show win0_0.index t (0 : Fin 2) * 2000 + 1 * p.val = r.val; omega
  | ⟨1, _⟩ => show win0_0.index t (1 : Fin 2) * 147 + 1 * k.val = k.val; omega

/-- The weight block at every point is the whole weight matrix. -/
theorem weight_block (c : Dev nD) (t : Fin cfg0.N) (k : Fin 147) (q : Fin 300) :
    iblk0 V c 1 t (ix2 k q) = (V c main_arg2 : S147x300.Idx → EReal) (ix2 k q) := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t (0 : Fin 2) * 147 + 1 * k.val = k.val; omega
  | ⟨1, _⟩ => show win0_1.index t (1 : Fin 2) * 300 + 1 * q.val = q.val; omega

/-- What point `t` writes back to the first output is block `t` of the whole product. -/
theorem flushed_inp (c : Dev nD) (t : Fin cfg0.N) :
    (dat0 V c).flushed 2 t = ((cfg0.win 2).blk t).view.read (Elt Ideal) (mm (V c main_arg1) (V c main_arg2) : S200000x300.Idx → EReal) := by
  show (cfg0.win 2).cut (grid0.coords t) ((dat0 V c).after 2 t) = _
  rw [after0_2]
  unfold out0_2
  rw [View.canon_unit_zero hz]
  simp only [View.ld_unit_zero (S := S2000x147) hz, View.ld_unit_zero (S := S147x300) hz]
  obtain ⟨-, -, -, -, e20, e21, -⟩ := idx_facts t
  funext j
  obtain ⟨p, q, rfl⟩ : ∃ (p : Fin 2000) (q : Fin 300), j = ix2 p q := ⟨j 0, j 1, eq_ix2 j⟩
  rw [View.read_apply]
  have ht : t.val < 100 := Nat.lt_of_lt_of_eq t.isLt N_0
  have hlt : t.val * 2000 + p.val < 200000 := by have := p.isLt; omega
  have hemb : ((cfg0.win 2).blk t).view.emb (ix2 p q) = (ix2 (⟨t.val * 2000 + p.val, hlt⟩ : Fin 200000) q : S200000x300.Idx) := by
    funext a
    apply Fin.ext
    match a with
    | ⟨0, _⟩ => show win0_2.index t (0 : Fin 2) * 2000 + 1 * p.val = t.val * 2000 + p.val; omega
    | ⟨1, _⟩ => show win0_2.index t (1 : Fin 2) * 300 + 1 * q.val = q.val; omega
  rw [hemb]
  refine (prod_apply (iblk0 V c 0 t) (iblk0 V c 1 t) p q).trans ?_
  rw [mm_apply]
  exact Finset.sum_congr rfl fun k _ => by rw [feat_block V c t p k ⟨t.val * 2000 + p.val, hlt⟩ rfl, weight_block V c t k q]

/-- What point `t` writes back to the second output is block `t` of the positive part of the whole product. -/
theorem flushed_msg (c : Dev nD) (t : Fin cfg0.N) :
    (dat0 V c).flushed 3 t = ((cfg0.win 3).blk t).view.read (Elt Ideal) (relu (mm (V c main_arg1) (V c main_arg2)) : S200000x300.Idx → EReal) := by
  show (cfg0.win 3).cut (grid0.coords t) ((dat0 V c).after 3 t) = _
  rw [after0_3]
  unfold out0_3
  rw [View.canon_unit_zero hz]
  simp only [View.ld_unit_zero (S := S2000x147) hz, View.ld_unit_zero (S := S147x300) hz]
  obtain ⟨-, -, -, -, -, -, e30, e31⟩ := idx_facts t
  funext j
  obtain ⟨p, q, rfl⟩ : ∃ (p : Fin 2000) (q : Fin 300), j = ix2 p q := ⟨j 0, j 1, eq_ix2 j⟩
  rw [View.read_apply]
  have ht : t.val < 100 := Nat.lt_of_lt_of_eq t.isLt N_0
  have hlt : t.val * 2000 + p.val < 200000 := by have := p.isLt; omega
  have hemb : ((cfg0.win 3).blk t).view.emb (ix2 p q) = (ix2 (⟨t.val * 2000 + p.val, hlt⟩ : Fin 200000) q : S200000x300.Idx) := by
    funext a
    apply Fin.ext
    match a with
    | ⟨0, _⟩ => show win0_3.index t (0 : Fin 2) * 2000 + 1 * p.val = t.val * 2000 + p.val; omega
    | ⟨1, _⟩ => show win0_3.index t (1 : Fin 2) * 300 + 1 * q.val = q.val; omega
  rw [hemb]
  refine (msg_apply (iblk0 V c 0 t) (iblk0 V c 1 t) p q).trans ?_
  show _ = max (mm _ _ (ix2 _ q)) z
  rw [mm_apply]
  exact congrArg (fun v => max v z) (Finset.sum_congr rfl fun k _ => by rw [feat_block V c t p k ⟨t.val * 2000 + p.val, hlt⟩ rfl, weight_block V c t k q])

/-- Every index of the first output lies in the block of the point its row belongs to. -/
theorem cover_inp (i : S200000x300.Idx) : ∃ t : Fin cfg0.N, (cfg0.win 2).flush t = true ∧ i ∈ ((cfg0.win 2).blk t).view.set := by
  have hi0 : (i 0).val < 200000 := idx2_lt0 i
  have hi1 : (i 1).val < 300 := idx2_lt1 i
  have hN : cfg0.N = 100 := N_0
  have hlt : (i 0).val / 2000 < cfg0.N := by rw [hN]; omega
  refine ⟨⟨(i 0).val / 2000, hlt⟩, flush0_2 _, ?_⟩
  obtain ⟨-, -, -, -, e20, e21, -⟩ := idx_facts ⟨(i 0).val / 2000, hlt⟩
  show i ∈ ((View.whole main_v0_0).slice (win0_2.rect ⟨(i 0).val / 2000, hlt⟩)).set
  rw [View.set_slice_whole, Rect.mem_set_unit]
  intro a
  match a with
  | ⟨0, _⟩ =>
    show win0_2.index _ (0 : Fin 2) * 2000 ≤ (i 0).val ∧ (i 0).val < win0_2.index _ (0 : Fin 2) * 2000 + 2000
    rw [e20]; show (i 0).val / 2000 * 2000 ≤ (i 0).val ∧ (i 0).val < (i 0).val / 2000 * 2000 + 2000; omega
  | ⟨1, _⟩ =>
    show win0_2.index _ (1 : Fin 2) * 300 ≤ (i 1).val ∧ (i 1).val < win0_2.index _ (1 : Fin 2) * 300 + 300
    rw [e21]; omega

/-- The same for the second output. -/
theorem cover_msg (i : S200000x300.Idx) : ∃ t : Fin cfg0.N, (cfg0.win 3).flush t = true ∧ i ∈ ((cfg0.win 3).blk t).view.set := by
  have hi0 : (i 0).val < 200000 := idx2_lt0 i
  have hi1 : (i 1).val < 300 := idx2_lt1 i
  have hN : cfg0.N = 100 := N_0
  have hlt : (i 0).val / 2000 < cfg0.N := by rw [hN]; omega
  refine ⟨⟨(i 0).val / 2000, hlt⟩, flush0_3 _, ?_⟩
  obtain ⟨-, -, -, -, -, -, e30, e31⟩ := idx_facts ⟨(i 0).val / 2000, hlt⟩
  show i ∈ ((View.whole main_v0_1).slice (win0_3.rect ⟨(i 0).val / 2000, hlt⟩)).set
  rw [View.set_slice_whole, Rect.mem_set_unit]
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 300 ≤ (i 1).val ∧ (i 1).val < win0_3.index _ (1 : Fin 2) * 300 + 300
    rw [e31]; omega

/-- THE INITIAL BOND TERM: after the launch the first output array is the product of the features with the weights. -/
theorem final_inp (c : Dev nD) : (dat0 V c).arrAt 2 cfg0.N = (mm (V c main_arg1) (V c main_arg2) : S200000x300.Idx → EReal) :=
  (dat0 V c).arrAt_eq_of_cover 2 _ (fun t _ => flushed_inp V c t) cover_inp

/-- THE FIRST MESSAGES: the second output array is the positive part of that product. -/
theorem final_msg (c : Dev nD) : (dat0 V c).arrAt 3 cfg0.N = (relu (mm (V c main_arg1) (V c main_arg2)) : S200000x300.Idx → EReal) :=
  (dat0 V c).arrAt_eq_of_cover 3 _ (fun t _ => flushed_msg V c t) cover_msg

end Cert.KernelIdeal.BondInit

end
-- ==== Proof.Region1.lean ====
/-
  Message update, launch 1 of the program.

  The grid has 100 points; point `t` reads rows `2000 t … 2000 t + 1999` of the message difference and of the initial
  bond term, and the whole hidden weight matrix, and writes the same rows of the new messages: the positive part of the
  initial term plus the product of the difference rows with the weights. Row `r` of the result depends only on row `r` of
  the two row-tiled inputs, so the blocks the points write are the row blocks of one whole-array function and fill the array.
-/
import proofs.«153127_j15444702396779_2_alg».proof.Proof.Gen.KernelIdeal.Frame
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Update1

open Cert.KernelIdeal Cert.KernelIdeal.Gen Cert.Mpn

variable (V : (c : Dev nD) → (b : Ref sig .tc) → Buf (Elt Ideal) ((c : Thread nD τ).loc b))

theorem hz : (![0, 0] : Fin 2 → Nat) = fun _ => 0 := funext fun a => by fin_cases a <;> rfl

/-- The body's store at `(p, q)`: the positive part of the initial term plus the sum over the 300 hidden units. -/
theorem pay_apply (d : Vec Ideal S2000x300 .f32) (w : Vec Ideal S300x300 .f32) (inp : Vec Ideal S2000x300 .f32) (p : Fin 2000) (q : Fin 300) :
    k1_pay1 d w inp (ix2 p q) = max (inp (ix2 p q) + ∑ k : Fin 300, d (ix2 p k) * w (ix2 k q)) z := by
  unfold k1_pay1
  simp only [shapeCast_self]
  exact congrArg (fun v => max (inp (ix2 p q) + v) z)
    (PlainDot.matmul_zero_apply (φ₁ := .bf16) (φ₂ := .bf16) none (truncf .bf16 d bitsLt_bf16_f32) (truncf .bf16 w bitsLt_bf16_f32) p q)

/-- Where each window's block sits at point `t`: the row tiles move with the point, the weights stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry `(p, k)` of the difference block at point `t` is entry `(2000 t + p, k)` of the array. -/
theorem diff_block (c : Dev nD) (t : Fin cfg1.N) (p : Fin 2000) (k : Fin 300) (r : Fin 200000) (hr : r.val = t.val * 2000 + p.val) :
    iblk1 V c 0 t (ix2 p k) = (V c main_v25 : S200000x300.Idx → EReal) (ix2 r k) := by
  obtain ⟨e00, e01, -⟩ := idx_facts t
  unfold iblk1
  rw [View.read_apply]
  show V c main_v25 _ = V c main_v25 _
  congr 1
  funext a
  apply Fin.ext
  match a with
  | ⟨0, _⟩ => show win1_0.index t (0 : Fin 2) * 2000 + 1 * p.val = r.val; omega
  | ⟨1, _⟩ => show win1_0.index t (1 : Fin 2) * 300 + 1 * k.val = k.val; omega

/-- The weight block at every point is the whole hidden weight matrix. -/
theorem weight_block (c : Dev nD) (t : Fin cfg1.N) (k : Fin 300) (q : Fin 300) :
    iblk1 V c 1 t (ix2 k q) = (V c main_arg3 : S300x300.Idx → EReal) (ix2 k q) := by
  obtain ⟨-, -, e10, e11, -⟩ := idx_facts t
  unfold iblk1
  rw [View.read_apply]
  show V c main_arg3 _ = V c main_arg3 _
  congr 1
  funext a
  apply Fin.ext
  match a with
  | ⟨0, _⟩ => show win1_1.index t (0 : Fin 2) * 300 + 1 * k.val = k.val; omega
  | ⟨1, _⟩ => show win1_1.index t (1 : Fin 2) * 300 + 1 * q.val = q.val; omega

/-- Entry `(p, q)` of the initial-term block at point `t` is entry `(2000 t + p, q)` of the array. -/
theorem inp_block (c : Dev nD) (t : Fin cfg1.N) (p : Fin 2000) (q : Fin 300) (r : Fin 200000) (hr : r.val = t.val * 2000 + p.val) :
    iblk1 V c 2 t (ix2 p q) = (V c main_v0_0 : S200000x300.Idx → EReal) (ix2 r q) := by
  obtain ⟨-, -, -, -, e20, e21, -⟩ := idx_facts t
  unfold iblk1
  rw [View.read_apply]
  show V c main_v0_0 _ = V c main_v0_0 _
  congr 1
  funext a
  apply Fin.ext
  match a with
  | ⟨0, _⟩ => show win1_2.index t (0 : Fin 2) * 2000 + 1 * p.val = r.val; omega
  | ⟨1, _⟩ => show win1_2.index t (1 : Fin 2) * 300 + 1 * q.val = q.val; omega

/-- What point `t` writes back is block `t` of the update of the whole arrays. -/
theorem flushed_msg (c : Dev nD) (t : Fin cfg1.N) :
    (dat1 V c).flushed 3 t = ((cfg1.win 3).blk t).view.read (Elt Ideal)
      (upd (V c main_v0_0 : S200000x300.Idx → EReal) (V c main_v25 : S200000x300.Idx → EReal) (V c main_arg3 : S300x300.Idx → EReal) : S200000x300.Idx → EReal) := by
  show (cfg1.win 3).cut (grid1.coords t) ((dat1 V c).after 3 t) = _
  rw [after1_3]
  unfold out1_3
  rw [View.canon_unit_zero hz]
  simp only [View.ld_unit_zero (S := S2000x300) hz, View.ld_unit_zero (S := S300x300) hz]
  obtain ⟨-, -, -, -, -, -, e30, e31⟩ := idx_facts t
  funext j
  obtain ⟨p, q, rfl⟩ : ∃ (p : Fin 2000) (q : Fin 300), j = ix2 p q := ⟨j 0, j 1, eq_ix2 j⟩
  rw [View.read_apply]
  have ht : t.val < 100 := Nat.lt_of_lt_of_eq t.isLt N_1
  have hlt : t.val * 2000 + p.val < 200000 := by have := p.isLt; omega
  have hemb : ((cfg1.win 3).blk t).view.emb (ix2 p q) = (ix2 (⟨t.val * 2000 + p.val, hlt⟩ : Fin 200000) q : S200000x300.Idx) := by
    funext a
    apply Fin.ext
    match a with
    | ⟨0, _⟩ => show win1_3.index t (0 : Fin 2) * 2000 + 1 * p.val = t.val * 2000 + p.val; omega
    | ⟨1, _⟩ => show win1_3.index t (1 : Fin 2) * 300 + 1 * q.val = q.val; omega
  rw [hemb]
  refine (pay_apply (iblk1 V c 0 t) (iblk1 V c 1 t) (iblk1 V c 2 t) p q).trans ?_
  refine congrArg₂ (fun a b : EReal => max (a + b) z) (inp_block V c t p q ⟨t.val * 2000 + p.val, hlt⟩ rfl) ?_
  exact Finset.sum_congr rfl fun k _ => by rw [diff_block V c t p k ⟨t.val * 2000 + p.val, hlt⟩ rfl, weight_block V c t k q]

/-- Every index of the message array lies in the block of the point its row belongs to. -/
theorem cover (i : S200000x300.Idx) : ∃ t : Fin cfg1.N, (cfg1.win 3).flush t = true ∧ i ∈ ((cfg1.win 3).blk t).view.set := by
  have hi0 : (i 0).val < 200000 := idx2_lt0 i
  have hi1 : (i 1).val < 300 := idx2_lt1 i
  have hN : cfg1.N = 100 := N_1
  have hlt : (i 0).val / 2000 < cfg1.N := by rw [hN]; omega
  refine ⟨⟨(i 0).val / 2000, hlt⟩, flush1_3 _, ?_⟩
  obtain ⟨-, -, -, -, -, -, e30, e31⟩ := idx_facts ⟨(i 0).val / 2000, hlt⟩
  show i ∈ ((View.whole main_v26).slice (win1_3.rect ⟨(i 0).val / 2000, hlt⟩)).set
  rw [View.set_slice_whole, Rect.mem_set_unit]
  intro a
  match a with
  | ⟨0, _⟩ =>
    show win1_3.index _ (0 : Fin 2) * 2000 ≤ (i 0).val ∧ (i 0).val < win1_3.index _ (0 : Fin 2) * 2000 + 2000
    rw [e30]; show (i 0).val / 2000 * 2000 ≤ (i 0).val ∧ (i 0).val < (i 0).val / 2000 * 2000 + 2000; omega
  | ⟨1, _⟩ =>
    show win1_3.index _ (1 : Fin 2) * 300 ≤ (i 1).val ∧ (i 1).val < win1_3.index _ (1 : Fin 2) * 300 + 300
    rw [e31]; omega

/-- THE NEW MESSAGES: after the launch the output array holds the update of the arrays the launch found. -/
theorem final (c : Dev nD) : (dat1 V c).arrAt 3 cfg1.N
    = (upd (V c main_v0_0 : S200000x300.Idx → EReal) (V c main_v25 : S200000x300.Idx → EReal) (V c main_arg3 : S300x300.Idx → EReal) : S200000x300.Idx → EReal) :=
  (dat1 V c).arrAt_eq_of_cover 3 _ (fun t _ => flushed_msg V c t) cover

end Cert.KernelIdeal.Update1

end
-- ==== Proof.Region2.lean ====
/-
  Message update, launch 2 of the program.

  The grid has 100 points; point `t` reads rows `2000 t … 2000 t + 1999` of the message difference and of the initial
  bond term, and the whole hidden weight matrix, and writes the same rows of the new messages: the positive part of the
  initial term plus the product of the difference rows with the weights. Row `r` of the result depends only on row `r` of
  the two row-tiled inputs, so the blocks the points write are the row blocks of one whole-array function and fill the array.
-/
import proofs.«153127_j15444702396779_2_alg».proof.Proof.Gen.KernelIdeal.Frame
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Update2

open Cert.KernelIdeal Cert.KernelIdeal.Gen Cert.Mpn

variable (V : (c : Dev nD) → (b : Ref sig .tc) → Buf (Elt Ideal) ((c : Thread nD τ).loc b))

theorem hz : (![0, 0] : Fin 2 → Nat) = fun _ => 0 := funext fun a => by fin_cases a <;> rfl

/-- The body's store at `(p, q)`: the positive part of the initial term plus the sum over the 300 hidden units. -/
theorem pay_apply (d : Vec Ideal S2000x300 .f32) (w : Vec Ideal S300x300 .f32) (inp : Vec Ideal S2000x300 .f32) (p : Fin 2000) (q : Fin 300) :
    k2_pay1 d w inp (ix2 p q) = max (inp (ix2 p q) + ∑ k : Fin 300, d (ix2 p k) * w (ix2 k q)) z := by
  unfold k2_pay1
  simp only [shapeCast_self]
  exact congrArg (fun v => max (inp (ix2 p q) + v) z)
    (PlainDot.matmul_zero_apply (φ₁ := .bf16) (φ₂ := .bf16) none (truncf .bf16 d bitsLt_bf16_f32) (truncf .bf16 w bitsLt_bf16_f32) p q)

/-- Where each window's block sits at point `t`: the row tiles move with the point, the weights stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `(p, k)` of the difference block at point `t` is entry `(2000 t + p, k)` of the array. -/
theorem diff_block (c : Dev nD) (t : Fin cfg2.N) (p : Fin 2000) (k : Fin 300) (r : Fin 200000) (hr : r.val = t.val * 2000 + p.val) :
    iblk2 V c 0 t (ix2 p k) = (V c main_v51 : S200000x300.Idx → EReal) (ix2 r k) := by
  obtain ⟨e00, e01, -⟩ := idx_facts t
  unfold iblk2
  rw [View.read_apply]
  show V c main_v51 _ = V c main_v51 _
  congr 1
  funext a
  apply Fin.ext
  match a with
  | ⟨0, _⟩ => show win2_0.index t (0 : Fin 2) * 2000 + 1 * p.val = r.val; omega
  | ⟨1, _⟩ => show win2_0.index t (1 : Fin 2) * 300 + 1 * k.val = k.val; omega

/-- The weight block at every point is the whole hidden weight matrix. -/
theorem weight_block (c : Dev nD) (t : Fin cfg2.N) (k : Fin 300) (q : Fin 300) :
    iblk2 V c 1 t (ix2 k q) = (V c main_arg3 : S300x300.Idx → EReal) (ix2 k q) := by
  obtain ⟨-, -, e10, e11, -⟩ := idx_facts t
  unfold iblk2
  rw [View.read_apply]
  show V c main_arg3 _ = V c main_arg3 _
  congr 1
  funext a
  apply Fin.ext
  match a with
  | ⟨0, _⟩ => show win2_1.index t (0 : Fin 2) * 300 + 1 * k.val = k.val; omega
  | ⟨1, _⟩ => show win2_1.index t (1 : Fin 2) * 300 + 1 * q.val = q.val; omega

/-- Entry `(p, q)` of the initial-term block at point `t` is entry `(2000 t + p, q)` of the array. -/
theorem inp_block (c : Dev nD) (t : Fin cfg2.N) (p : Fin 2000) (q : Fin 300) (r : Fin 200000) (hr : r.val = t.val * 2000 + p.val) :
    iblk2 V c 2 t (ix2 p q) = (V c main_v0_0 : S200000x300.Idx → EReal) (ix2 r q) := by
  obtain ⟨-, -, -, -, e20, e21, -⟩ := idx_facts t
  unfold iblk2
  rw [View.read_apply]
  show V c main_v0_0 _ = V c main_v0_0 _
  congr 1
  funext a
  apply Fin.ext
  match a with
  | ⟨0, _⟩ => show win2_2.index t (0 : Fin 2) * 2000 + 1 * p.val = r.val; omega
  | ⟨1, _⟩ => show win2_2.index t (1 : Fin 2) * 300 + 1 * q.val = q.val; omega

/-- What point `t` writes back is block `t` of the update of the whole arrays. -/
theorem flushed_msg (c : Dev nD) (t : Fin cfg2.N) :
    (dat2 V c).flushed 3 t = ((cfg2.win 3).blk t).view.read (Elt Ideal)
      (upd (V c main_v0_0 : S200000x300.Idx → EReal) (V c main_v51 : S200000x300.Idx → EReal) (V c main_arg3 : S300x300.Idx → EReal) : S200000x300.Idx → EReal) := by
  show (cfg2.win 3).cut (grid2.coords t) ((dat2 V c).after 3 t) = _
  rw [after2_3]
  unfold out2_3
  rw [View.canon_unit_zero hz]
  simp only [View.ld_unit_zero (S := S2000x300) hz, View.ld_unit_zero (S := S300x300) hz]
  obtain ⟨-, -, -, -, -, -, e30, e31⟩ := idx_facts t
  funext j
  obtain ⟨p, q, rfl⟩ : ∃ (p : Fin 2000) (q : Fin 300), j = ix2 p q := ⟨j 0, j 1, eq_ix2 j⟩
  rw [View.read_apply]
  have ht : t.val < 100 := Nat.lt_of_lt_of_eq t.isLt N_2
  have hlt : t.val * 2000 + p.val < 200000 := by have := p.isLt; omega
  have hemb : ((cfg2.win 3).blk t).view.emb (ix2 p q) = (ix2 (⟨t.val * 2000 + p.val, hlt⟩ : Fin 200000) q : S200000x300.Idx) := by
    funext a
    apply Fin.ext
    match a with
    | ⟨0, _⟩ => show win2_3.index t (0 : Fin 2) * 2000 + 1 * p.val = t.val * 2000 + p.val; omega
    | ⟨1, _⟩ => show win2_3.index t (1 : Fin 2) * 300 + 1 * q.val = q.val; omega
  rw [hemb]
  refine (pay_apply (iblk2 V c 0 t) (iblk2 V c 1 t) (iblk2 V c 2 t) p q).trans ?_
  refine congrArg₂ (fun a b : EReal => max (a + b) z) (inp_block V c t p q ⟨t.val * 2000 + p.val, hlt⟩ rfl) ?_
  exact Finset.sum_congr rfl fun k _ => by rw [diff_block V c t p k ⟨t.val * 2000 + p.val, hlt⟩ rfl, weight_block V c t k q]

/-- Every index of the message array lies in the block of the point its row belongs to. -/
theorem cover (i : S200000x300.Idx) : ∃ t : Fin cfg2.N, (cfg2.win 3).flush t = true ∧ i ∈ ((cfg2.win 3).blk t).view.set := by
  have hi0 : (i 0).val < 200000 := idx2_lt0 i
  have hi1 : (i 1).val < 300 := idx2_lt1 i
  have hN : cfg2.N = 100 := N_2
  have hlt : (i 0).val / 2000 < cfg2.N := by rw [hN]; omega
  refine ⟨⟨(i 0).val / 2000, hlt⟩, flush2_3 _, ?_⟩
  obtain ⟨-, -, -, -, -, -, e30, e31⟩ := idx_facts ⟨(i 0).val / 2000, hlt⟩
  show i ∈ ((View.whole main_v52).slice (win2_3.rect ⟨(i 0).val / 2000, hlt⟩)).set
  rw [View.set_slice_whole, Rect.mem_set_unit]
  intro a
  match a with
  | ⟨0, _⟩ =>
    show win2_3.index _ (0 : Fin 2) * 2000 ≤ (i 0).val ∧ (i 0).val < win2_3.index _ (0 : Fin 2) * 2000 + 2000
    rw [e30]; show (i 0).val / 2000 * 2000 ≤ (i 0).val ∧ (i 0).val < (i 0).val / 2000 * 2000 + 2000; omega
  | ⟨1, _⟩ =>
    show win2_3.index _ (1 : Fin 2) * 300 ≤ (i 1).val ∧ (i 1).val < win2_3.index _ (1 : Fin 2) * 300 + 300
    rw [e31]; omega

/-- THE NEW MESSAGES: after the launch the output array holds the update of the arrays the launch found. -/
theorem final (c : Dev nD) : (dat2 V c).arrAt 3 cfg2.N
    = (upd (V c main_v0_0 : S200000x300.Idx → EReal) (V c main_v51 : S200000x300.Idx → EReal) (V c main_arg3 : S300x300.Idx → EReal) : S200000x300.Idx → EReal) :=
  (dat2 V c).arrAt_eq_of_cover 3 _ (fun t _ => flushed_msg V c t) cover

end Cert.KernelIdeal.Update2

end
-- ==== Proof.Region3.lean ====
/-
  Message update, launch 3 of the program.

  The grid has 100 points; point `t` reads rows `2000 t … 2000 t + 1999` of the message difference and of the initial
  bond term, and the whole hidden weight matrix, and writes the same rows of the new messages: the positive part of the
  initial term plus the product of the difference rows with the weights. Row `r` of the result depends only on row `r` of
  the two row-tiled inputs, so the blocks the points write are the row blocks of one whole-array function and fill the array.
-/
import proofs.«153127_j15444702396779_2_alg».proof.Proof.Gen.KernelIdeal.Frame
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Update3

open Cert.KernelIdeal Cert.KernelIdeal.Gen Cert.Mpn

variable (V : (c : Dev nD) → (b : Ref sig .tc) → Buf (Elt Ideal) ((c : Thread nD τ).loc b))

theorem hz : (![0, 0] : Fin 2 → Nat) = fun _ => 0 := funext fun a => by fin_cases a <;> rfl

/-- The body's store at `(p, q)`: the positive part of the initial term plus the sum over the 300 hidden units. -/
theorem pay_apply (d : Vec Ideal S2000x300 .f32) (w : Vec Ideal S300x300 .f32) (inp : Vec Ideal S2000x300 .f32) (p : Fin 2000) (q : Fin 300) :
    k3_pay1 d w inp (ix2 p q) = max (inp (ix2 p q) + ∑ k : Fin 300, d (ix2 p k) * w (ix2 k q)) z := by
  unfold k3_pay1
  simp only [shapeCast_self]
  exact congrArg (fun v => max (inp (ix2 p q) + v) z)
    (PlainDot.matmul_zero_apply (φ₁ := .bf16) (φ₂ := .bf16) none (truncf .bf16 d bitsLt_bf16_f32) (truncf .bf16 w bitsLt_bf16_f32) p q)

/-- Where each window's block sits at point `t`: the row tiles move with the point, the weights stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Entry `(p, k)` of the difference block at point `t` is entry `(2000 t + p, k)` of the array. -/
theorem diff_block (c : Dev nD) (t : Fin cfg3.N) (p : Fin 2000) (k : Fin 300) (r : Fin 200000) (hr : r.val = t.val * 2000 + p.val) :
    iblk3 V c 0 t (ix2 p k) = (V c main_v77 : S200000x300.Idx → EReal) (ix2 r k) := by
  obtain ⟨e00, e01, -⟩ := idx_facts t
  unfold iblk3
  rw [View.read_apply]
  show V c main_v77 _ = V c main_v77 _
  congr 1
  funext a
  apply Fin.ext
  match a with
  | ⟨0, _⟩ => show win3_0.index t (0 : Fin 2) * 2000 + 1 * p.val = r.val; omega
  | ⟨1, _⟩ => show win3_0.index t (1 : Fin 2) * 300 + 1 * k.val = k.val; omega

/-- The weight block at every point is the whole hidden weight matrix. -/
theorem weight_block (c : Dev nD) (t : Fin cfg3.N) (k : Fin 300) (q : Fin 300) :
    iblk3 V c 1 t (ix2 k q) = (V c main_arg3 : S300x300.Idx → EReal) (ix2 k q) := by
  obtain ⟨-, -, e10, e11, -⟩ := idx_facts t
  unfold iblk3
  rw [View.read_apply]
  show V c main_arg3 _ = V c main_arg3 _
  congr 1
  funext a
  apply Fin.ext
  match a with
  | ⟨0, _⟩ => show win3_1.index t (0 : Fin 2) * 300 + 1 * k.val = k.val; omega
  | ⟨1, _⟩ => show win3_1.index t (1 : Fin 2) * 300 + 1 * q.val = q.val; omega

/-- Entry `(p, q)` of the initial-term block at point `t` is entry `(2000 t + p, q)` of the array. -/
theorem inp_block (c : Dev nD) (t : Fin cfg3.N) (p : Fin 2000) (q : Fin 300) (r : Fin 200000) (hr : r.val = t.val * 2000 + p.val) :
    iblk3 V c 2 t (ix2 p q) = (V c main_v0_0 : S200000x300.Idx → EReal) (ix2 r q) := by
  obtain ⟨-, -, -, -, e20, e21, -⟩ := idx_facts t
  unfold iblk3
  rw [View.read_apply]
  show V c main_v0_0 _ = V c main_v0_0 _
  congr 1
  funext a
  apply Fin.ext
  match a with
  | ⟨0, _⟩ => show win3_2.index t (0 : Fin 2) * 2000 + 1 * p.val = r.val; omega
  | ⟨1, _⟩ => show win3_2.index t (1 : Fin 2) * 300 + 1 * q.val = q.val; omega

/-- What point `t` writes back is block `t` of the update of the whole arrays. -/
theorem flushed_msg (c : Dev nD) (t : Fin cfg3.N) :
    (dat3 V c).flushed 3 t = ((cfg3.win 3).blk t).view.read (Elt Ideal)
      (upd (V c main_v0_0 : S200000x300.Idx → EReal) (V c main_v77 : S200000x300.Idx → EReal) (V c main_arg3 : S300x300.Idx → EReal) : S200000x300.Idx → EReal) := by
  show (cfg3.win 3).cut (grid3.coords t) ((dat3 V c).after 3 t) = _
  rw [after3_3]
  unfold out3_3
  rw [View.canon_unit_zero hz]
  simp only [View.ld_unit_zero (S := S2000x300) hz, View.ld_unit_zero (S := S300x300) hz]
  obtain ⟨-, -, -, -, -, -, e30, e31⟩ := idx_facts t
  funext j
  obtain ⟨p, q, rfl⟩ : ∃ (p : Fin 2000) (q : Fin 300), j = ix2 p q := ⟨j 0, j 1, eq_ix2 j⟩
  rw [View.read_apply]
  have ht : t.val < 100 := Nat.lt_of_lt_of_eq t.isLt N_3
  have hlt : t.val * 2000 + p.val < 200000 := by have := p.isLt; omega
  have hemb : ((cfg3.win 3).blk t).view.emb (ix2 p q) = (ix2 (⟨t.val * 2000 + p.val, hlt⟩ : Fin 200000) q : S200000x300.Idx) := by
    funext a
    apply Fin.ext
    match a with
    | ⟨0, _⟩ => show win3_3.index t (0 : Fin 2) * 2000 + 1 * p.val = t.val * 2000 + p.val; omega
    | ⟨1, _⟩ => show win3_3.index t (1 : Fin 2) * 300 + 1 * q.val = q.val; omega
  rw [hemb]
  refine (pay_apply (iblk3 V c 0 t) (iblk3 V c 1 t) (iblk3 V c 2 t) p q).trans ?_
  refine congrArg₂ (fun a b : EReal => max (a + b) z) (inp_block V c t p q ⟨t.val * 2000 + p.val, hlt⟩ rfl) ?_
  exact Finset.sum_congr rfl fun k _ => by rw [diff_block V c t p k ⟨t.val * 2000 + p.val, hlt⟩ rfl, weight_block V c t k q]

/-- Every index of the message array lies in the block of the point its row belongs to. -/
theorem cover (i : S200000x300.Idx) : ∃ t : Fin cfg3.N, (cfg3.win 3).flush t = true ∧ i ∈ ((cfg3.win 3).blk t).view.set := by
  have hi0 : (i 0).val < 200000 := idx2_lt0 i
  have hi1 : (i 1).val < 300 := idx2_lt1 i
  have hN : cfg3.N = 100 := N_3
  have hlt : (i 0).val / 2000 < cfg3.N := by rw [hN]; omega
  refine ⟨⟨(i 0).val / 2000, hlt⟩, flush3_3 _, ?_⟩
  obtain ⟨-, -, -, -, -, -, e30, e31⟩ := idx_facts ⟨(i 0).val / 2000, hlt⟩
  show i ∈ ((View.whole main_v78).slice (win3_3.rect ⟨(i 0).val / 2000, hlt⟩)).set
  rw [View.set_slice_whole, Rect.mem_set_unit]
  intro a
  match a with
  | ⟨0, _⟩ =>
    show win3_3.index _ (0 : Fin 2) * 2000 ≤ (i 0).val ∧ (i 0).val < win3_3.index _ (0 : Fin 2) * 2000 + 2000
    rw [e30]; show (i 0).val / 2000 * 2000 ≤ (i 0).val ∧ (i 0).val < (i 0).val / 2000 * 2000 + 2000; omega
  | ⟨1, _⟩ =>
    show win3_3.index _ (1 : Fin 2) * 300 ≤ (i 1).val ∧ (i 1).val < win3_3.index _ (1 : Fin 2) * 300 + 300
    rw [e31]; omega

/-- THE NEW MESSAGES: after the launch the output array holds the update of the arrays the launch found. -/
theorem final (c : Dev nD) : (dat3 V c).arrAt 3 cfg3.N
    = (upd (V c main_v0_0 : S200000x300.Idx → EReal) (V c main_v77 : S200000x300.Idx → EReal) (V c main_arg3 : S300x300.Idx → EReal) : S200000x300.Idx → EReal) :=
  (dat3 V c).arrAt_eq_of_cover 3 _ (fun t _ => flushed_msg V c t) cover

end Cert.KernelIdeal.Update3

end
-- ==== Proof.Region4.lean ====
/-
  The atom readout, the last launch.

  The grid has 50 points; point `t` reads rows `2000 t … 2000 t + 1999` of the atom features and of the summed messages,
  the two row blocks of the output weights and the one-row bias, all three whole, and writes the same rows of the atom
  hidden states: the positive part of the two products added, plus the bias of the column. Row `r` of the result depends
  only on row `r` of the two row-tiled inputs, so the blocks are the row blocks of one whole-array function and fill the array.
-/
import proofs.«153127_j15444702396779_2_alg».proof.Proof.Gen.KernelIdeal.Frame
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Readout

open Cert.KernelIdeal Cert.KernelIdeal.Gen Cert.Mpn

variable (V : (c : Dev nD) → (b : Ref sig .tc) → Buf (Elt Ideal) ((c : Thread nD τ).loc b))

theorem hz : (![0, 0] : Fin 2 → Nat) = fun _ => 0 := funext fun a => by fin_cases a <;> rfl

/-- The one-row bias spread over the tile's rows reads its column's entry. -/
theorem bias_apply (b : Vec Ideal S1x300 .f32) (h : S1x300.Broadcasts S2000x300) (p : Fin 2000) (q : Fin 300) :
    broadcastTo S2000x300 b h (ix2 p q) = b (ix2 0 q) := by
  refine broadcastTo_apply b h (ix2 p q) (ix2 0 q) fun a => ?_
  match a with
  | ⟨0, _⟩ => rfl
  | ⟨1, _⟩ => rfl

/-- The body's store at `(p, q)`: the positive part of the two sums, over the 133 atom features and over the 300 hidden
    units, plus the bias of column `q`. -/
theorem pay_apply (fa : Vec Ideal S2000x133 .f32) (am : Vec Ideal S2000x300 .f32) (w₁ : Vec Ideal S133x300 .f32)
    (w₂ : Vec Ideal S300x300 .f32) (b : Vec Ideal S1x300 .f32) (p : Fin 2000) (q : Fin 300) :
    k4_pay1 fa am w₁ w₂ b (ix2 p q)
      = max ((∑ k : Fin 133, fa (ix2 p k) * w₁ (ix2 k q)) + (∑ k : Fin 300, am (ix2 p k) * w₂ (ix2 k q)) + b (ix2 0 q)) z := by
  unfold k4_pay1
  simp only [shapeCast_self]
  rw [maximumf_apply, addf_apply, addf_apply, bias_apply]
  exact congrArg₂ (fun u v => max (u + v + b (ix2 0 q)) z)
    (PlainDot.matmul_zero_apply (φ₁ := .bf16) (φ₂ := .bf16) none (truncf .bf16 fa bitsLt_bf16_f32) (truncf .bf16 w₁ bitsLt_bf16_f32) p q)
    (PlainDot.matmul_zero_apply (φ₁ := .bf16) (φ₂ := .bf16) none (truncf .bf16 am bitsLt_bf16_f32) (truncf .bf16 w₂ bitsLt_bf16_f32) p q)

/-- Where each window's block sits at point `t`: the row tiles move with the point, the weights and the bias stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Entry `(p, k)` of the atom-feature block at point `t` is entry `(2000 t + p, k)` of the array. -/
theorem feat_block (c : Dev nD) (t : Fin cfg4.N) (p : Fin 2000) (k : Fin 133) (r : Fin 100000) (hr : r.val = t.val * 2000 + p.val) :
    iblk4 V c 0 t (ix2 p k) = (V c main_arg0 : S100000x133.Idx → EReal) (ix2 r k) := by
  have e := idx_facts t
  unfold iblk4
  rw [View.read_apply]
  show V c main_arg0 _ = V c main_arg0 _
  congr 1
  funext a
  apply Fin.ext
  match a with
  | ⟨0, _⟩ => show win4_0.index t (0 : Fin 2) * 2000 + 1 * p.val = r.val; omega
  | ⟨1, _⟩ => show win4_0.index t (1 : Fin 2) * 133 + 1 * k.val = k.val; omega

/-- Entry `(p, k)` of the summed-message block at point `t` is entry `(2000 t + p, k)` of the array. -/
theorem msg_block (c : Dev nD) (t : Fin cfg4.N) (p : Fin 2000) (k : Fin 300) (r : Fin 100000) (hr : r.val = t.val * 2000 + p.val) :
    iblk4 V c 1 t (ix2 p k) = (V c main_v87 : S100000x300.Idx → EReal) (ix2 r k) := by
  have e := idx_facts t
  unfold iblk4
  rw [View.read_apply]
  show V c main_v87 _ = V c main_v87 _
  congr 1
  funext a
  apply Fin.ext
  match a with
  | ⟨0, _⟩ => show win4_1.index t (0 : Fin 2) * 2000 + 1 * p.val = r.val; omega
  | ⟨1, _⟩ => show win4_1.index t (1 : Fin 2) * 300 + 1 * k.val = k.val; omega

/-- The first weight block at every point is the whole array. -/
theorem w1_block (c : Dev nD) (t : Fin cfg4.N) (p : Fin 133) (k : Fin 300) :
    iblk4 V c 2 t (ix2 p k) = (V c main_v88 : S133x300.Idx → EReal) (ix2 p k) := by
  have e := idx_facts t
  unfold iblk4
  rw [View.read_apply]
  show V c main_v88 _ = V c main_v88 _
  congr 1
  funext a
  apply Fin.ext
  match a with
  | ⟨0, _⟩ => show win4_2.index t (0 : Fin 2) * 133 + 1 * p.val = p.val; omega
  | ⟨1, _⟩ => show win4_2.index t (1 : Fin 2) * 300 + 1 * k.val = k.val; omega

/-- The second weight block at every point is the whole array. -/
theorem w2_block (c : Dev nD) (t : Fin cfg4.N) (p : Fin 300) (k : Fin 300) :
    iblk4 V c 3 t (ix2 p k) = (V c main_v89 : S300x300.Idx → EReal) (ix2 p k) := by
  have e := idx_facts t
  unfold iblk4
  rw [View.read_apply]
  show V c main_v89 _ = V c main_v89 _
  congr 1
  funext a
  apply Fin.ext
  match a with
  | ⟨0, _⟩ => show win4_3.index t (0 : Fin 2) * 300 + 1 * p.val = p.val; omega
  | ⟨1, _⟩ => show win4_3.index t (1 : Fin 2) * 300 + 1 * k.val = k.val; omega

/-- The bias block at every point is the whole one-row array. -/
theorem bias_block (c : Dev nD) (t : Fin cfg4.N) (p : Fin 1) (k : Fin 300) :
    iblk4 V c 4 t (ix2 p k) = (V c main_v90 : S1x300.Idx → EReal) (ix2 p k) := by
  have e := idx_facts t
  unfold iblk4
  rw [View.read_apply]
  show V c main_v90 _ = V c main_v90 _
  congr 1
  funext a
  apply Fin.ext
  match a with
  | ⟨0, _⟩ => show win4_4.index t (0 : Fin 2) * 1 + 1 * p.val = p.val; omega
  | ⟨1, _⟩ => show win4_4.index t (1 : Fin 2) * 300 + 1 * k.val = k.val; omega

/-- What point `t` writes back is block `t` of the readout of the whole arrays. -/
theorem flushed_out (c : Dev nD) (t : Fin cfg4.N) :
    (dat4 V c).flushed 5 t = ((cfg4.win 5).blk t).view.read (Elt Ideal)
      (readout (V c main_arg0 : S100000x133.Idx → EReal) (V c main_v87 : S100000x300.Idx → EReal) (V c main_v88 : S133x300.Idx → EReal)
        (V c main_v89 : S300x300.Idx → EReal) (V c main_v90 : S1x300.Idx → EReal) : S100000x300.Idx → EReal) := by
  show (cfg4.win 5).cut (grid4.coords t) ((dat4 V c).after 5 t) = _
  rw [after4_5]
  unfold out4_5
  rw [View.canon_unit_zero hz]
  simp only [View.ld_unit_zero (S := S2000x133) hz, View.ld_unit_zero (S := S2000x300) hz, View.ld_unit_zero (S := S133x300) hz,
    View.ld_unit_zero (S := S300x300) hz, View.ld_unit_zero (S := S1x300) hz]
  have e := idx_facts t
  funext j
  obtain ⟨p, q, rfl⟩ : ∃ (p : Fin 2000) (q : Fin 300), j = ix2 p q := ⟨j 0, j 1, eq_ix2 j⟩
  rw [View.read_apply]
  have ht : t.val < 50 := Nat.lt_of_lt_of_eq t.isLt N_4
  have hlt : t.val * 2000 + p.val < 100000 := by have := p.isLt; omega
  have hemb : ((cfg4.win 5).blk t).view.emb (ix2 p q) = (ix2 (⟨t.val * 2000 + p.val, hlt⟩ : Fin 100000) q : S100000x300.Idx) := by
    funext a
    apply Fin.ext
    match a with
    | ⟨0, _⟩ => show win4_5.index t (0 : Fin 2) * 2000 + 1 * p.val = t.val * 2000 + p.val; omega
    | ⟨1, _⟩ => show win4_5.index t (1 : Fin 2) * 300 + 1 * q.val = q.val; omega
  rw [hemb]
  refine (pay_apply (iblk4 V c 0 t) (iblk4 V c 1 t) (iblk4 V c 2 t) (iblk4 V c 3 t) (iblk4 V c 4 t) p q).trans ?_
  refine congrArg₂ (fun a b : EReal => max (a + b) z) (congrArg₂ (fun a b : EReal => a + b) ?_ ?_) (bias_block V c t 0 q)
  · exact Finset.sum_congr rfl fun k _ => by rw [feat_block V c t p k ⟨t.val * 2000 + p.val, hlt⟩ rfl, w1_block V c t k q]
  · exact Finset.sum_congr rfl fun k _ => by rw [msg_block V c t p k ⟨t.val * 2000 + p.val, hlt⟩ rfl, w2_block V c t k q]

/-- Every index of the hidden-state array lies in the block of the point its row belongs to. -/
theorem cover (i : S100000x300.Idx) : ∃ t : Fin cfg4.N, (cfg4.win 5).flush t = true ∧ i ∈ ((cfg4.win 5).blk t).view.set := by
  have hi0 : (i 0).val < 100000 := idx2_lt0 i
  have hi1 : (i 1).val < 300 := idx2_lt1 i
  have hN : cfg4.N = 50 := N_4
  have hlt : (i 0).val / 2000 < cfg4.N := by rw [hN]; omega
  refine ⟨⟨(i 0).val / 2000, hlt⟩, flush4_5 _, ?_⟩
  have e := idx_facts ⟨(i 0).val / 2000, hlt⟩
  show i ∈ ((View.whole main_v91).slice (win4_5.rect ⟨(i 0).val / 2000, hlt⟩)).set
  rw [View.set_slice_whole, Rect.mem_set_unit]
  intro a
  match a with
  | ⟨0, _⟩ =>
    show win4_5.index _ (0 : Fin 2) * 2000 ≤ (i 0).val ∧ (i 0).val < win4_5.index _ (0 : Fin 2) * 2000 + 2000
    rw [e.2.2.2.2.2.2.2.2.2.2.1]; show (i 0).val / 2000 * 2000 ≤ (i 0).val ∧ (i 0).val < (i 0).val / 2000 * 2000 + 2000; omega
  | ⟨1, _⟩ =>
    show win4_5.index _ (1 : Fin 2) * 300 ≤ (i 1).val ∧ (i 1).val < win4_5.index _ (1 : Fin 2) * 300 + 300
    rw [e.2.2.2.2.2.2.2.2.2.2.2]; omega

/-- THE ATOM HIDDEN STATES: after the launch the output array holds the readout of the arrays the launch found. -/
theorem final (c : Dev nD) : (dat4 V c).arrAt 5 cfg4.N
    = (readout (V c main_arg0 : S100000x133.Idx → EReal) (V c main_v87 : S100000x300.Idx → EReal) (V c main_v88 : S133x300.Idx → EReal)
        (V c main_v89 : S300x300.Idx → EReal) (V c main_v90 : S1x300.Idx → EReal) : S100000x300.Idx → EReal) :=
  (dat4 V c).arrAt_eq_of_cover 5 _ (fun t _ => flushed_out V c t) cover

end Cert.KernelIdeal.Readout

end
-- ==== Proof.RefStages.lean ====
/-
  The reference's stages as the same functions of whole arrays.

  The reference computes every stage on the host: a `dot_general` for each product, `maximum` against a broadcast zero
  for each positive part, and for the readout one product of the concatenation `[f_atoms | a_message]` with the whole
  output weight matrix. At the extended reals each `dot_general` entry is the sum over the contracted axis, so the first
  stages are the specification's functions as they stand; for the readout the concatenated product splits into the
  two products with the weight matrix's upper 133 and lower 300 rows, which is how the kernel computes it.
-/
import proofs.«153127_j15444702396779_2_alg».proof.Proof.Gen.ReferenceIdeal.Read
import proofs.«153127_j15444702396779_2_alg».proof.Proof.Spec
import proofs.«153127_j15444702396779_2_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.ReferenceIdeal.Stages

open Cert.ReferenceIdeal Cert.ReferenceIdeal.Gen Cert.ReferenceIdeal.Read Cert.Mpn

/-- The initial bond term is the product of the bond features with the input weights. -/
theorem inp_eq (x1 : (⟨S200000x147, .f32⟩ : BufTy).Contents (Elt Ideal)) (x2 : (⟨S147x300, .f32⟩ : BufTy).Contents (Elt Ideal)) :
    val_main_v0 (F := Ideal) x1 x2 = (mm x1 x2 : S200000x300.Idx → EReal) := by
  funext i
  obtain ⟨p, q, rfl⟩ : ∃ (p : Fin 200000) (q : Fin 300), i = ix2 p q := ⟨i 0, i 1, eq_ix2 i⟩
  exact PlainDot.dotGeneral_apply none .single x1 x2 p q

/-- The first messages are its positive part. -/
theorem msg0_eq (x1 : (⟨S200000x147, .f32⟩ : BufTy).Contents (Elt Ideal)) (x2 : (⟨S147x300, .f32⟩ : BufTy).Contents (Elt Ideal)) :
    val_main_v1 (F := Ideal) x1 x2 = (relu (mm x1 x2) : S200000x300.Idx → EReal) := by
  funext i
  rw [val_main_v1_apply, inp_eq]
  rfl

/-- One update on the host — the product with the hidden weights added to the initial term, then the positive part
    against an array of zeros — is the specification's update. -/
theorem upd_eq (inp d : FVec Ideal S200000x300 .f32) (w : FVec Ideal S300x300 .f32) (zr : FVec Ideal S200000x300 .f32) (hzr : ∀ i, zr i = z) :
    maximumf (F := Ideal) (addf (F := Ideal) inp (Host.dotGeneral (F := Ideal) (φ₁ := .f32) (φ₂ := .f32) dot_S200000x300_S300x300_S200000x300_1_0_0_1_n_n none d w)) zr
      = (upd inp d w : S200000x300.Idx → EReal) := by
  funext i
  obtain ⟨p, q, rfl⟩ : ∃ (p : Fin 200000) (q : Fin 300), i = ix2 p q := ⟨i 0, i 1, eq_ix2 i⟩
  rw [maximumf_apply, addf_apply, hzr]
  exact congrArg (fun v : EReal => max (inp (ix2 p q) + v) z) (PlainDot.dotGeneral_apply none .single d w p q)

/-- The messages after the first update. -/
theorem msg1_eq (x1 : (⟨S200000x147, .f32⟩ : BufTy).Contents (Elt Ideal)) (x2 : (⟨S147x300, .f32⟩ : BufTy).Contents (Elt Ideal)) (x3 : (⟨S300x300, .f32⟩ : BufTy).Contents (Elt Ideal)) (x6 : (⟨S100000x6, .i32⟩ : BufTy).Contents (Elt Ideal)) (x7 x8 : (⟨S200000, .i32⟩ : BufTy).Contents (Elt Ideal)) :
    val_main_v27 (F := Ideal) x1 x2 x3 x6 x7 x8
      = (upd (mm x1 x2) (val_main_v24 (F := Ideal) x1 x2 x6 x7 x8) x3 : S200000x300.Idx → EReal) := by
  rw [← inp_eq]
  exact upd_eq (val_main_v0 (F := Ideal) x1 x2) (val_main_v24 (F := Ideal) x1 x2 x6 x7 x8) x3 (val_main_call1_v0 (F := Ideal)) (fun _ => rfl)

/-- The messages after the second update. -/
theorem msg2_eq (x1 : (⟨S200000x147, .f32⟩ : BufTy).Contents (Elt Ideal)) (x2 : (⟨S147x300, .f32⟩ : BufTy).Contents (Elt Ideal)) (x3 : (⟨S300x300, .f32⟩ : BufTy).Contents (Elt Ideal)) (x6 : (⟨S100000x6, .i32⟩ : BufTy).Contents (Elt Ideal)) (x7 x8 : (⟨S200000, .i32⟩ : BufTy).Contents (Elt Ideal)) :
    val_main_v53 (F := Ideal) x1 x2 x3 x6 x7 x8
      = (upd (mm x1 x2) (val_main_v50 (F := Ideal) x1 x2 x3 x6 x7 x8) x3 : S200000x300.Idx → EReal) := by
  rw [← inp_eq]
  exact upd_eq (val_main_v0 (F := Ideal) x1 x2) (val_main_v50 (F := Ideal) x1 x2 x3 x6 x7 x8) x3 (val_main_call2_v0 (F := Ideal)) (fun _ => rfl)

/-- The messages after the third update. -/
theorem msg3_eq (x1 : (⟨S200000x147, .f32⟩ : BufTy).Contents (Elt Ideal)) (x2 : (⟨S147x300, .f32⟩ : BufTy).Contents (Elt Ideal)) (x3 : (⟨S300x300, .f32⟩ : BufTy).Contents (Elt Ideal)) (x6 : (⟨S100000x6, .i32⟩ : BufTy).Contents (Elt Ideal)) (x7 x8 : (⟨S200000, .i32⟩ : BufTy).Contents (Elt Ideal)) :
    val_main_v79 (F := Ideal) x1 x2 x3 x6 x7 x8
      = (upd (mm x1 x2) (val_main_v76 (F := Ideal) x1 x2 x3 x6 x7 x8) x3 : S200000x300.Idx → EReal) := by
  rw [← inp_eq]
  exact upd_eq (val_main_v0 (F := Ideal) x1 x2) (val_main_v76 (F := Ideal) x1 x2 x3 x6 x7 x8) x3 (val_main_call3_v0 (F := Ideal)) (fun _ => rfl)

/-- The bias as one row: entry `(0, q)` of the reshaped vector is entry `q`. -/
theorem bias_row (x5 : (⟨S300, .f32⟩ : BufTy).Contents (Elt Ideal)) (h : S300.ShapeCasts ⟨2, ![1, 300]⟩) (q : Fin 300) :
    shapeCast ⟨2, ![1, 300]⟩ x5 h (ix2 0 q) = x5 (ix1 q) := by
  refine shapeCast_apply x5 h (ix2 0 q) (ix1 q) ?_
  rw [Shape.rowMajor_val_one, Shape.rowMajor_val_two]
  show q.val = 0 * 300 + q.val
  omega

/-- The bias broadcast over the atoms reads entry `q` of the vector in column `q`. -/
theorem bias_bcast (x5 : (⟨S300, .f32⟩ : BufTy).Contents (Elt Ideal)) (p : Fin 100000) (q : Fin 300) :
    val_main_v91 (F := Ideal) x5 (ix2 p q) = x5 (ix1 q) := by
  rw [val_main_v91_apply, val_main_v90_apply]
  congr 1
  funext a
  match a with
  | ⟨0, _⟩ => rfl

/-- THE ATOM HIDDEN STATES of the reference are the readout of the atom features and the summed messages against the two
    row blocks of the output weights and the bias as one row. -/
theorem hidden_eq (x0 : (⟨S100000x133, .f32⟩ : BufTy).Contents (Elt Ideal)) (x1 : (⟨S200000x147, .f32⟩ : BufTy).Contents (Elt Ideal)) (x2 : (⟨S147x300, .f32⟩ : BufTy).Contents (Elt Ideal)) (x3 : (⟨S300x300, .f32⟩ : BufTy).Contents (Elt Ideal)) (x4 : (⟨S433x300, .f32⟩ : BufTy).Contents (Elt Ideal)) (x5 : (⟨S300, .f32⟩ : BufTy).Contents (Elt Ideal))
    (x6 : (⟨S100000x6, .i32⟩ : BufTy).Contents (Elt Ideal)) (x7 x8 : (⟨S200000, .i32⟩ : BufTy).Contents (Elt Ideal))
    (hs₁ : S433x300.Slices ![0, 0] ⟨2, ![133, 300]⟩) (hs₂ : S433x300.Slices ![133, 0] ⟨2, ![300, 300]⟩) (hc : S300.ShapeCasts ⟨2, ![1, 300]⟩) :
    val_main_v93 (F := Ideal) x0 x1 x2 x3 x4 x5 x6 x7 x8
      = (readout (A := 100000) (K₁ := 133) (K₂ := 300) (N := 300) x0 (val_main_v87 (F := Ideal) x1 x2 x3 x6 x7 x8)
          (extractStridedSlice ⟨2, ![133, 300]⟩ ![0, 0] x4 hs₁) (extractStridedSlice ⟨2, ![300, 300]⟩ ![133, 0] x4 hs₂)
          (shapeCast ⟨2, ![1, 300]⟩ x5 hc) : S100000x300.Idx → EReal) := by
  funext i
  obtain ⟨p, q, rfl⟩ : ∃ (p : Fin 100000) (q : Fin 300), i = ix2 p q := ⟨i 0, i 1, eq_ix2 i⟩
  have hdot : val_main_v89 (F := Ideal) x0 x1 x2 x3 x4 x6 x7 x8 (ix2 p q)
      = mm (M := 100000) (K := 133 + 300) (N := 300) (concatenate S100000x433 1 [⟨S100000x133, x0⟩, ⟨S100000x300, val_main_v87 (F := Ideal) x1 x2 x3 x6 x7 x8⟩] concatenates_S100000x133_S100000x300_S100000x433_d1) x4 (ix2 p q) :=
    PlainDot.dotGeneral_apply (M := 100000) (K := 433) (N := 300) none .single (val_main_v88 (F := Ideal) x0 x1 x2 x3 x6 x7 x8) x4 p q
  have hsplit := mm_concat (A := 100000) (a := 133) (b := 300) (N := 300) x0 (val_main_v87 (F := Ideal) x1 x2 x3 x6 x7 x8)
    (concatenate S100000x433 1 [⟨S100000x133, x0⟩, ⟨S100000x300, val_main_v87 (F := Ideal) x1 x2 x3 x6 x7 x8⟩] concatenates_S100000x133_S100000x300_S100000x433_d1) x4
    (extractStridedSlice ⟨2, ![133, 300]⟩ ![0, 0] x4 hs₁) (extractStridedSlice ⟨2, ![300, 300]⟩ ![133, 0] x4 hs₂)
    (fun p k => concatenate_pair_apply_left (t := S100000x433) (s₁ := S100000x133) (s₂ := S100000x300) (1 : Fin 2) x0 (val_main_v87 (F := Ideal) x1 x2 x3 x6 x7 x8) concatenates_S100000x133_S100000x300_S100000x433_d1
      (ix2 p (Fin.castAdd 300 k)) rfl (ix2 p k) (fun b => by match b with | ⟨0, _⟩ => rfl | ⟨1, _⟩ => rfl))
    (fun p k => concatenate_pair_apply_right (t := S100000x433) (s₁ := S100000x133) (s₂ := S100000x300) (1 : Fin 2) x0 (val_main_v87 (F := Ideal) x1 x2 x3 x6 x7 x8) concatenates_S100000x133_S100000x300_S100000x433_d1
      (ix2 p (Fin.natAdd 133 k)) rfl rfl (ix2 p k) (fun b hb => by match b with | ⟨0, _⟩ => rfl | ⟨1, _⟩ => exact absurd rfl hb)
      (by show k.val + 133 = 133 + k.val; omega))
    (fun k q => extractStridedSlice_apply ![0, 0] x4 hs₁ (ix2 k q) (ix2 (Fin.castAdd 300 k) q)
      (fun a => by match a with | ⟨0, _⟩ => (show k.val = 0 + k.val; omega) | ⟨1, _⟩ => (show q.val = 0 + q.val; omega)))
    (fun k q => extractStridedSlice_apply ![133, 0] x4 hs₂ (ix2 k q) (ix2 (Fin.natAdd 133 k) q)
      (fun a => by match a with | ⟨0, _⟩ => (show 133 + k.val = 133 + k.val; rfl) | ⟨1, _⟩ => (show q.val = 0 + q.val; omega)))
    p q
  rw [val_main_v93_apply, val_main_v92_apply, hdot, hsplit, bias_bcast]
  show max (_ + _ + _) z = max (_ + _ + shapeCast ⟨2, ![1, 300]⟩ x5 hc (ix2 0 q)) z
  rw [bias_row]

end Cert.ReferenceIdeal.Stages

end
-- ==== Proof.KernelStages.lean ====
/-
  The kernel's stages, boundary by boundary, against the reference's.

  Between the launch memory and the result the run passes ten boundaries: after each of the five launches and after
  each stretch of host operations. This module computes the buffers that carry the network's state at each boundary:
  the initial bond term, the messages after each update, the message differences the host computes from them by gathers
  and row sums, the summed messages and weight blocks the readout reads, the atom hidden states, and the result. Each is
  shown equal to the stage of the same name in the reference. A launch contributes the whole-array function its blocks
  tile; a host stretch applies the same operations as the reference to arrays already shown equal, so it needs no
  arithmetic: the kernel gathers rows of its messages and then changes their float format, which at the extended reals is
  the identity, where the reference gathers rows of the same messages.
-/
import proofs.«153127_j15444702396779_2_alg».proof.Proof.KernelArgs
import proofs.«153127_j15444702396779_2_alg».proof.Proof.Region0
import proofs.«153127_j15444702396779_2_alg».proof.Proof.Region1
import proofs.«153127_j15444702396779_2_alg».proof.Proof.Region2
import proofs.«153127_j15444702396779_2_alg».proof.Proof.Region3
import proofs.«153127_j15444702396779_2_alg».proof.Proof.Region4
import proofs.«153127_j15444702396779_2_alg».proof.Proof.RefStages
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Stages

open Cert.KernelIdeal Cert.KernelIdeal.Gen Cert.Mpn
open Cert.ReferenceIdeal.Gen
open Cert.ReferenceIdeal.Read (val_main_v0 val_main_v1 val_main_v24 val_main_v27 val_main_v50 val_main_v53 val_main_v76 val_main_v79
  val_main_v87 val_main_v93 val_main_v105)

variable (m : (ℓ : Loc nD τ sig) → Buf (Elt Ideal) ℓ) (ρ : Dev nD → PrngReg) (c : Dev nD)

/-! ## The first launch -/

/-- The initial bond term: the product of the bond features with the input weights. -/
theorem inp_at1 : W1 m ρ c (Proc.devRef .tc main_v0_0) = (mm (m ((c : Thread nD τ).loc main_arg1)) (m ((c : Thread nD τ).loc main_arg2)) : S200000x300.Idx → EReal) :=
  (W1_arr m ρ c 2).trans (BondInit.final_inp (V0 m ρ) c)

/-- The first messages are the reference's. -/
theorem msg0_at1 : W1 m ρ c (Proc.devRef .tc main_v0_1) = val_main_v1 (F := Ideal) (m ((c : Thread nD τ).loc main_arg1)) (m ((c : Thread nD τ).loc main_arg2)) :=
  (W1_arr m ρ c 3).trans ((BondInit.final_msg (V0 m ρ) c).trans (Cert.ReferenceIdeal.Stages.msg0_eq _ _).symm)

/-! ## The initial term is read again by every update and never written -/

theorem inp_at2 : W2 m ρ c (Proc.devRef .tc main_v0_0) = (mm (m ((c : Thread nD τ).loc main_arg1)) (m ((c : Thread nD τ).loc main_arg2)) : S200000x300.Idx → EReal) :=
  (show W2 m ρ c (Proc.devRef .tc main_v0_0) = W1 m ρ c (Proc.devRef .tc main_v0_0) from by host_keeps hostOps1).trans (inp_at1 m ρ c)
theorem inp_at3 : W3 m ρ c (Proc.devRef .tc main_v0_0) = (mm (m ((c : Thread nD τ).loc main_arg1)) (m ((c : Thread nD τ).loc main_arg2)) : S200000x300.Idx → EReal) :=
  (show W3 m ρ c (Proc.devRef .tc main_v0_0) = W2 m ρ c (Proc.devRef .tc main_v0_0) from (W3_arr m ρ c 2).trans (((dat1 (V2 m ρ) c).arrAt_in 2 rfl _).trans (A_eq1 (V2 m ρ) c 2))).trans (inp_at2 m ρ c)
theorem inp_at4 : W4 m ρ c (Proc.devRef .tc main_v0_0) = (mm (m ((c : Thread nD τ).loc main_arg1)) (m ((c : Thread nD τ).loc main_arg2)) : S200000x300.Idx → EReal) :=
  (show W4 m ρ c (Proc.devRef .tc main_v0_0) = W3 m ρ c (Proc.devRef .tc main_v0_0) from by host_keeps hostOps2).trans (inp_at3 m ρ c)
theorem inp_at5 : W5 m ρ c (Proc.devRef .tc main_v0_0) = (mm (m ((c : Thread nD τ).loc main_arg1)) (m ((c : Thread nD τ).loc main_arg2)) : S200000x300.Idx → EReal) :=
  (show W5 m ρ c (Proc.devRef .tc main_v0_0) = W4 m ρ c (Proc.devRef .tc main_v0_0) from (W5_arr m ρ c 2).trans (((dat2 (V4 m ρ) c).arrAt_in 2 rfl _).trans (A_eq2 (V4 m ρ) c 2))).trans (inp_at4 m ρ c)
theorem inp_at6 : W6 m ρ c (Proc.devRef .tc main_v0_0) = (mm (m ((c : Thread nD τ).loc main_arg1)) (m ((c : Thread nD τ).loc main_arg2)) : S200000x300.Idx → EReal) :=
  (show W6 m ρ c (Proc.devRef .tc main_v0_0) = W5 m ρ c (Proc.devRef .tc main_v0_0) from by host_keeps hostOps3).trans (inp_at5 m ρ c)

/-! ## The three updates -/

/-- The difference of incoming and reverse messages before update 1: the host operations between the launches applied to the
    messages the previous launch left, which are the reference's, so the result is the reference's difference. -/
theorem delta1_at2 : W2 m ρ c (Proc.devRef .tc main_v25) = val_main_v24 (F := Ideal) (m ((c : Thread nD τ).loc main_arg1)) (m ((c : Thread nD τ).loc main_arg2)) (m ((c : Thread nD τ).loc main_arg6)) (m ((c : Thread nD τ).loc main_arg7)) (m ((c : Thread nD τ).loc main_arg8)) := by
  show StableHlo.after hostOps1 (W1 m ρ c) (Proc.devRef .tc main_v25) = _
  after_results_simp
  rw [msg0_at1 m ρ c, arg6_at1 m ρ c, arg7_at1 m ρ c, arg8_at1 m ρ c]
  rfl

/-- The messages after update 1: what launch 1 leaves in its output array is the update of the arrays it found, and those are
    the reference's initial term, difference and weights. -/
theorem msg1_at3 : W3 m ρ c (Proc.devRef .tc main_v26) = val_main_v27 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  refine (W3_arr m ρ c 3).trans ((Update1.final (V2 m ρ) c).trans ?_)
  show (upd (W2 m ρ c (Proc.devRef .tc main_v0_0) : S200000x300.Idx → EReal) (W2 m ρ c (Proc.devRef .tc main_v25) : S200000x300.Idx → EReal)
      (W2 m ρ c (Proc.devRef .tc main_arg3) : S300x300.Idx → EReal) : S200000x300.Idx → EReal) = _
  rw [inp_at2 m ρ c, delta1_at2 m ρ c, arg3_at2 m ρ c]
  exact (Cert.ReferenceIdeal.Stages.msg1_eq _ _ _ _ _ _).symm

/-- The difference of incoming and reverse messages before update 2: the host operations between the launches applied to the
    messages the previous launch left, which are the reference's, so the result is the reference's difference. -/
theorem delta2_at4 : W4 m ρ c (Proc.devRef .tc main_v51) = val_main_v50 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  show StableHlo.after hostOps2 (W3 m ρ c) (Proc.devRef .tc main_v51) = _
  after_results_simp
  rw [msg1_at3 m ρ c, arg6_at3 m ρ c, arg7_at3 m ρ c, arg8_at3 m ρ c]
  rfl

/-- The messages after update 2: what launch 2 leaves in its output array is the update of the arrays it found, and those are
    the reference's initial term, difference and weights. -/
theorem msg2_at5 : W5 m ρ c (Proc.devRef .tc main_v52) = val_main_v53 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  refine (W5_arr m ρ c 3).trans ((Update2.final (V4 m ρ) c).trans ?_)
  show (upd (W4 m ρ c (Proc.devRef .tc main_v0_0) : S200000x300.Idx → EReal) (W4 m ρ c (Proc.devRef .tc main_v51) : S200000x300.Idx → EReal)
      (W4 m ρ c (Proc.devRef .tc main_arg3) : S300x300.Idx → EReal) : S200000x300.Idx → EReal) = _
  rw [inp_at4 m ρ c, delta2_at4 m ρ c, arg3_at4 m ρ c]
  exact (Cert.ReferenceIdeal.Stages.msg2_eq _ _ _ _ _ _).symm

/-- The difference of incoming and reverse messages before update 3: the host operations between the launches applied to the
    messages the previous launch left, which are the reference's, so the result is the reference's difference. -/
theorem delta3_at6 : W6 m ρ c (Proc.devRef .tc main_v77) = val_main_v76 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  show StableHlo.after hostOps3 (W5 m ρ c) (Proc.devRef .tc main_v77) = _
  after_results_simp
  rw [msg2_at5 m ρ c, arg6_at5 m ρ c, arg7_at5 m ρ c, arg8_at5 m ρ c]
  rfl

/-- The messages after update 3: what launch 3 leaves in its output array is the update of the arrays it found, and those are
    the reference's initial term, difference and weights. -/
theorem msg3_at7 : W7 m ρ c (Proc.devRef .tc main_v78) = val_main_v79 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  refine (W7_arr m ρ c 3).trans ((Update3.final (V6 m ρ) c).trans ?_)
  show (upd (W6 m ρ c (Proc.devRef .tc main_v0_0) : S200000x300.Idx → EReal) (W6 m ρ c (Proc.devRef .tc main_v77) : S200000x300.Idx → EReal)
      (W6 m ρ c (Proc.devRef .tc main_arg3) : S300x300.Idx → EReal) : S200000x300.Idx → EReal) = _
  rw [inp_at6 m ρ c, delta3_at6 m ρ c, arg3_at6 m ρ c]
  exact (Cert.ReferenceIdeal.Stages.msg3_eq _ _ _ _ _ _).symm

/-! ## The readout -/

/-- The messages summed over each atom's incoming bonds. -/
theorem am_at8 : W8 m ρ c (Proc.devRef .tc main_v87) = val_main_v87 (F := Ideal) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) := by
  show StableHlo.after hostOps4 (W7 m ρ c) (Proc.devRef .tc main_v87) = _
  after_results
  rw [msg3_at7 m ρ c, arg6_at7 m ρ c]
  rfl

/-- The upper 133 rows of the output weights. -/
theorem w1_at8 : W8 m ρ c (Proc.devRef .tc main_v88) = extractStridedSlice S133x300 ![0, 0] (m ((c : Thread nD τ).loc main_arg4)) slices_S433x300_S133x300_0_0 := by
  show StableHlo.after hostOps4 (W7 m ρ c) (Proc.devRef .tc main_v88) = _
  after_results
  rw [arg4_at7 m ρ c]

/-- The lower 300 rows of the output weights. -/
theorem w2_at8 : W8 m ρ c (Proc.devRef .tc main_v89) = extractStridedSlice S300x300 ![133, 0] (m ((c : Thread nD τ).loc main_arg4)) slices_S433x300_S300x300_133_0 := by
  show StableHlo.after hostOps4 (W7 m ρ c) (Proc.devRef .tc main_v89) = _
  after_results
  rw [arg4_at7 m ρ c]

/-- The bias as one row. -/
theorem bias_at8 : W8 m ρ c (Proc.devRef .tc main_v90) = shapeCast S1x300 (m ((c : Thread nD τ).loc main_arg5)) shapeCasts_S300_S1x300 := by
  show StableHlo.after hostOps4 (W7 m ρ c) (Proc.devRef .tc main_v90) = _
  after_results
  rw [arg5_at7 m ρ c]
  rfl

/-- The atom hidden states are the reference's: the last launch leaves the readout of the arrays it found, and the
    reference's product of the concatenation with the whole weight matrix is the sum of the two block products. -/
theorem hidden_at9 : W9 m ρ c (Proc.devRef .tc main_v91) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 5).trans ((Readout.final (V8 m ρ) c).trans ?_)
  show (readout (W8 m ρ c (Proc.devRef .tc main_arg0) : S100000x133.Idx → EReal) (W8 m ρ c (Proc.devRef .tc main_v87) : S100000x300.Idx → EReal)
      (W8 m ρ c (Proc.devRef .tc main_v88) : S133x300.Idx → EReal) (W8 m ρ c (Proc.devRef .tc main_v89) : S300x300.Idx → EReal)
      (W8 m ρ c (Proc.devRef .tc main_v90) : S1x300.Idx → EReal) : S100000x300.Idx → EReal) = _
  rw [arg0_at8 m ρ c, am_at8 m ρ c, w1_at8 m ρ c, w2_at8 m ρ c, bias_at8 m ρ c]
  exact (Cert.ReferenceIdeal.Stages.hidden_eq _ _ _ _ _ _ _ _ _ _ _ _).symm

/-! ## The result -/

/-- THE RESULT: the per-molecule sums of the hidden states divided by the molecules' atom counts, the same host
    operations in both programs applied to hidden states already shown equal. -/
theorem result : W10 m ρ c (Proc.devRef .tc main_v103) = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W9 m ρ c) (Proc.devRef .tc main_v103) = _
  after_results
  rw [hidden_at9 m ρ c, arg9_at9 m ρ c]
  rfl

end Cert.KernelIdeal.Stages

end
-- ==== Proof.lean ====
/-
  Message passing over a molecular graph: a tiled kernel against its plain reference, equal over the extended reals.

  Both programs compute, for bond features `f_bonds`, atom features `f_atoms` and weights `W_i`, `W_h`, `W_o`, `b_o`:
    inp  = f_bonds · W_i,                    msg₀ = max(inp, 0),
    msgₜ₊₁ = max(inp + (A(msgₜ) − R(msgₜ)) · W_h, 0)     three times,
    hidden = max([f_atoms | S(msg₃)] · W_o + b_o, 0),
  and then average `hidden` over the atoms of each molecule, where `A`, `R` and `S` gather message rows by the graph's index
  arrays and sum them. The kernel computes the four kinds of product in five tiled launches, 2000 rows at a time, and
  leaves the gathers, the row sums and the per-molecule average to host operations between and after the launches; the
  reference does everything on the host.

  At the extended reals a change of float format is the identity and every product entry is the sum over the contracted
  axis, so a launch's row tiles are the row blocks of the reference's whole product and fill its output array. The host
  stretches apply the same operations in both programs to arrays already equal. The one place the two programs differ
  algebraically is the readout: the kernel adds the product of `f_atoms` with the upper 133 rows of `W_o` and the product
  of the summed messages with the lower 300 rows, where the reference multiplies their concatenation by the whole of
  `W_o`. That regroups one finite sum into two, which holds for all extended reals, so the finiteness of the inputs is
  never used. The kernel's idealization rewrote no operation, so there is nothing to preserve beyond the text itself.
-/
import proofs.«153127_j15444702396779_2_alg».proof.Defs
import proofs.«153127_j15444702396779_2_alg».proof.Proof.Gen.Kernel
import proofs.«153127_j15444702396779_2_alg».proof.Proof.Gen.Kernel.Skeleton
import proofs.«153127_j15444702396779_2_alg».proof.Proof.Gen.Kernel.Launch
import proofs.«153127_j15444702396779_2_alg».proof.Proof.Gen.Kernel.Points
import proofs.«153127_j15444702396779_2_alg».proof.Proof.Gen.Kernel.Frame
import proofs.«153127_j15444702396779_2_alg».proof.Proof.Gen.KernelIdeal
import proofs.«153127_j15444702396779_2_alg».proof.Proof.Gen.KernelIdeal.Skeleton
import proofs.«153127_j15444702396779_2_alg».proof.Proof.Gen.KernelIdeal.Launch
import proofs.«153127_j15444702396779_2_alg».proof.Proof.Gen.KernelIdeal.Points
import proofs.«153127_j15444702396779_2_alg».proof.Proof.Gen.KernelIdeal.Frame
import proofs.«153127_j15444702396779_2_alg».proof.Proof.Gen.ReferenceIdeal
import proofs.«153127_j15444702396779_2_alg».proof.Proof.Gen.Pre_finite_inputs
import proofs.«153127_j15444702396779_2_alg».proof.Proof.Gen.ReferenceIdeal.Run
import proofs.«153127_j15444702396779_2_alg».proof.Proof.Gen.ReferenceIdeal.Read
import proofs.«153127_j15444702396779_2_alg».proof.Proof.KernelRun
import proofs.«153127_j15444702396779_2_alg».proof.Proof.KernelStages
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's result buffer ends at the
    last stage of its run, which is the reference's last stage of the kernel's arguments; the reference ends at that stage
    of its own arguments, and the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v103),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v105_eq, h0, h1, h2, h3, h4, h5, h6, h7, h8, h9]
  exact (Cert.KernelIdeal.Stages.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
